-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S50000x128 .f32) (main_arg2 : FVec F S256x128 .f32) (main_arg3 : FVec F S128 .f32) (main_arg4 : FVec F S128 .f32) (main_arg5 : FVec F S128 .f32) (main_arg6 : FVec F S128x1 .f32) (main_arg7 : FVec F S1 .f32) (main_arg8 : IVec S1000000 32) (main_arg9 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x128 : Shape := ⟨2, ![100000, 128]⟩
abbrev S50000x128 : Shape := ⟨2, ![50000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S128x128 : Shape := ⟨2, ![128, 128]⟩
abbrev S20000x128 : Shape := ⟨2, ![20000, 128]⟩
abbrev S1x128 : Shape := ⟨2, ![1, 128]⟩
abbrev S1x1 : Shape := ⟨2, ![1, 1]⟩
abbrev S20000x1 : Shape := ⟨2, ![20000, 1]⟩
abbrev S20000 : Shape := ⟨1, ![20000]⟩

abbrev nBuf : Space → Nat
  | .hbm => 53
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1000000, .i32⟩
  | .hbm, ⟨9, _⟩ => ⟨S1000000, .i32⟩
  | .hbm, ⟨10, _⟩ => ⟨S100000x128, .bf16⟩
  | .hbm, ⟨11, _⟩ => ⟨S50000x128, .bf16⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .bf16⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x128, .bf16⟩
  | .hbm, ⟨30, _⟩ => ⟨S128x128, .f32⟩
  | .hbm, ⟨31, _⟩ => ⟨S128x128, .bf16⟩
  | .hbm, ⟨32, _⟩ => ⟨S128x128, .f32⟩
  | .hbm, ⟨33, _⟩ => ⟨S128x128, .bf16⟩
  | .hbm, ⟨34, _⟩ => ⟨S1000000x128, .bf16⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S1x1, .f32⟩
  | .hbm, ⟨51, _⟩ => ⟨S1000000x1, .f32⟩
  | .hbm, ⟨52, _⟩ => ⟨S1000000, .f32⟩
  | .local _ .vmem, ⟨0, _⟩ => ⟨S20000x128, .bf16⟩
  | .local _ .vmem, ⟨1, _⟩ => ⟨S20000x128, .bf16⟩
  | .local _ .vmem, ⟨2, _⟩ => ⟨S20000x128, .bf16⟩
  | .local _ .vmem, ⟨3, _⟩ => ⟨S20000x128, .bf16⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S20000x128, .bf16⟩
  | .local _ .vmem, ⟨8, _⟩ => ⟨S20000x128, .bf16⟩
  | .local _ .vmem, ⟨9, _⟩ => ⟨S128, .f32⟩
  | .local _ .vmem, ⟨10, _⟩ => ⟨S128, .f32⟩
  | .local _ .vmem, ⟨11, _⟩ => ⟨S20000x128, .bf16⟩
  | .local _ .vmem, ⟨12, _⟩ => ⟨S20000x128, .bf16⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S1x1, .f32⟩
  | .local _ .vmem, ⟨19, _⟩ => ⟨S20000x1, .f32⟩
  | .local _ .vmem, ⟨20, _⟩ => ⟨S20000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S20000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S20000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S256x128_S128x128_0_0 : S256x128.Slices ![0, 0] S128x128
  slices_S256x128_S128x128_128_0 : S256x128.Slices ![128, 0] S128x128
  inb_S128_S128_0 : ∀ a, (![0] : Fin 1 → Nat) a + S128.size a ≤ S128.size a
  h_S128 : 0 < S128.numel
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S1x128 : S128.ShapeCasts S1x128
  broadcasts_S1x128_S20000x128 : S1x128.Broadcasts S20000x128
  packedbf16_S20000x128_S20000x128_0_0 : (Rect.unit (s := S20000x128) ![0, 0] S20000x128.size inb_S20000x128_S20000x128_0_0).PackedRows (EltTy.packing .bf16)
  shapeCasts_S128_S128 : S128.ShapeCasts S128
  reduces_S20000x128_S128 : S20000x128.Reduces [0] S128
  bcast_S_S128 : S_.BroadcastsInDim S128 (![] : Fin 0 → Fin S128.rank)
  shapeCasts_S128x1_S128 : S128x1.ShapeCasts S128
  shapeCasts_S1_S1x1 : S1.ShapeCasts S1x1
  reduces_S20000x128_S20000 : S20000x128.Reduces [1] S20000
  shapeCasts_S20000_S20000x1 : S20000.ShapeCasts S20000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S20000x128_S128x128_S20000x128_1_0_0_1_n_n_wf : DotDims.WF S20000x128 S128x128 S20000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S1000000x128.size a
  hwx0_0 : ∀ i : grid0.Coords, EltTy.bits .bf16 = 32 ∨ (Rect.block (s := S1000000x128) S20000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x128.size a ≤ S1000000x128.size a
  hwx0_1 : ∀ i : grid0.Coords, EltTy.bits .bf16 = 32 ∨ (Rect.block (s := S1000000x128) S20000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x128.size a ≤ S1000000x128.size a
  hwx0_5 : ∀ i : grid0.Coords, EltTy.bits .bf16 = 32 ∨ (Rect.block (s := S1000000x128) S20000x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S1000000x128.size a
  hwx1_0 : ∀ i : grid1.Coords, EltTy.bits .bf16 = 32 ∨ (Rect.block (s := S1000000x128) S20000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S20000x1.size a ≤ S1000000x1.size a
  hwx1_7 : ∀ i : grid1.Coords, EltTy.bits .f32 = 32 ∨ (Rect.block (s := S1000000x1) S20000x1.size (cc1_transform_7 i) (hinb1_7 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

abbrev win0_0 : Pipeline.Window sig grid0 :=
  Pipeline.Window.ofSpec (Memref.whole main_v8) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S20000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S20000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20_0) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S20000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S1x128 : Shape := ⟨2, ![1, 128]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x128, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x128, .f32⟩
  | .hbm, ⟨28, _⟩ => ⟨S1000000x256, .f32⟩
  | .hbm, ⟨29, _⟩ => ⟨S1000000x128, .f32⟩
  | .hbm, ⟨30, _⟩ => ⟨S1x128, .f32⟩
  | .hbm, ⟨31, _⟩ => ⟨S1000000x128, .f32⟩
  | .hbm, ⟨32, _⟩ => ⟨S1000000x128, .f32⟩
  | .hbm, ⟨33, _⟩ => ⟨S_, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S1000000x128, .f32⟩
  | .hbm, ⟨40, _⟩ => ⟨S1000000x128, .f32⟩
  | .hbm, ⟨41, _⟩ => ⟨S1000000x128, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S1000000x128, .f32⟩
  | .hbm, ⟨49, _⟩ => ⟨S1000000x128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S1000000x128, .f32⟩
  | .hbm, ⟨56, _⟩ => ⟨S1000000x128, .f32⟩
  | .hbm, ⟨57, _⟩ => ⟨S1x128, .f32⟩
  | .hbm, ⟨58, _⟩ => ⟨S1000000x128, .f32⟩
  | .hbm, ⟨59, _⟩ => ⟨S1000000x128, .f32⟩
  | .hbm, ⟨60, _⟩ => ⟨S1x128, .f32⟩
  | .hbm, ⟨61, _⟩ => ⟨S1000000x128, .f32⟩
  | .hbm, ⟨62, _⟩ => ⟨S1000000x128, .f32⟩
  | .hbm, ⟨63, _⟩ => ⟨S_, .f32⟩
  | .hbm, ⟨64, _⟩ => ⟨S1000000x128, .f32⟩
  | .hbm, ⟨65, _⟩ => ⟨S1000000x128, .f32⟩
  | .hbm, ⟨66, _⟩ => ⟨S1000000x1, .f32⟩
  | .hbm, ⟨67, _⟩ => ⟨S1x1, .f32⟩
  | .hbm, ⟨68, _⟩ => ⟨S1000000x1, .f32⟩
  | .hbm, ⟨69, _⟩ => ⟨S1000000x1, .f32⟩
  | .hbm, ⟨70, _⟩ => ⟨S1000000, .f32⟩
  | .hbm, ⟨71, _⟩ => ⟨S1000000, .f32⟩
  | .hbm, ⟨72, _⟩ => ⟨S1000000, .f32⟩
  | .hbm, ⟨73, _⟩ => ⟨S_, .f32⟩
  | .hbm, ⟨74, _⟩ => ⟨S1000000, .f32⟩
  | .hbm, ⟨75, _⟩ => ⟨S1000000, .f32⟩
  | .hbm, ⟨76, _⟩ => ⟨S_, .f32⟩
  | .hbm, ⟨77, _⟩ => ⟨S1000000, .f32⟩
  | .hbm, ⟨78, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  reducesTo_S1000000x128_S128_d0 : S1000000x128.ReducesTo [0] S128
  h_S_ : 0 < S_.numel
  bcast_S_S128 : S_.BroadcastsInDim S128 (![] : Fin 0 → Fin S128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.Spec.lean ====
/-
  The mathematics both programs compute, over the extended reals, with plain `Fin` indices.

  An edge `e` (of 1000000) has a gathered user row `xu e` and a gathered food row `xf e` (128 entries each).
  * `lin`    : the first linear layer, `z e j = Σₖ xu e k · wa k j + Σₖ xf e k · wb k j + b1 j`, the weight matrix
               split into its upper half `wa` and its lower half `wb`;
  * `linCat` : the same layer written as ONE contraction of the concatenated row `[xu e, xf e]` (256 entries)
               with the whole 256×128 matrix;
  * `colSum`, `colSumSq` : the column sums `Σₑ z e j` and `Σₑ (z e j)²` over all edges;
  * `mean`   : `colSum / n`;   `varK` : `colSumSq / n − mean²`;   `varR` : `Σₑ (z e j − mean j)² / n`
               (the two textbook forms of the biased variance; `n` is the literal 1000000.0);
  * `istd`   : `rsqrt (v + ε)`;
  * `score`  : the normalised, rescaled, rectified row contracted with the second layer's column, plus its bias;
  * the result at edge `e` is `logistic (score …)`.
-/
import Idealize.ShloMosaic.PureOps.Ideal
import Idealize.ShloMosaic.Lib.ValueIdx

noncomputable section

namespace Cert.Spec

open Idealize.ShloMosaic

/-- The first linear layer with the weight matrix split in two halves. -/
def lin (xu xf : Fin 1000000 → Fin 128 → EReal) (wa wb : Fin 128 → Fin 128 → EReal) (b1 : Fin 128 → EReal)
    (e : Fin 1000000) (j : Fin 128) : EReal :=
  ((∑ k : Fin 128, xu e k * wa k j) + (∑ k : Fin 128, xf e k * wb k j)) + b1 j

/-- The concatenated row `[xu e, xf e]`. -/
def cat (xu xf : Fin 1000000 → Fin 128 → EReal) (e : Fin 1000000) (k : Fin 256) : EReal :=
  if h : k.val < 128 then xu e ⟨k.val, h⟩ else xf e ⟨k.val - 128, by have := k.isLt; omega⟩

/-- The first linear layer as one contraction over the 256 concatenated entries. -/
def linCat (xu xf : Fin 1000000 → Fin 128 → EReal) (w1 : Fin 256 → Fin 128 → EReal) (b1 : Fin 128 → EReal)
    (e : Fin 1000000) (j : Fin 128) : EReal :=
  (∑ k : Fin 256, cat xu xf e k * w1 k j) + b1 j

/-- Column sum over all edges. -/
def colSum (z : Fin 1000000 → Fin 128 → EReal) (j : Fin 128) : EReal := ∑ e : Fin 1000000, z e j

/-- Column sum of squares over all edges. -/
def colSumSq (z : Fin 1000000 → Fin 128 → EReal) (j : Fin 128) : EReal := ∑ e : Fin 1000000, z e j * z e j

/-- The literal `1000000.0`. -/
def nE : EReal := Ideal.ofBits .f32 0x49742400#32

/-- The literal the programs add to the variance. -/
def eps : EReal := Ideal.ofBits .f32 0x3727C5AC#32

/-- The literal `+0.0` the rectifier compares with. -/
def zeroLit : EReal := Ideal.ofBits .f32 0x00000000#32

/-- The batch mean of column `j`. -/
def mean (z : Fin 1000000 → Fin 128 → EReal) (j : Fin 128) : EReal := Ideal.div (colSum z j) nE

/-- The biased variance as mean of squares minus squared mean. -/
def varK (z : Fin 1000000 → Fin 128 → EReal) (j : Fin 128) : EReal :=
  Ideal.div (colSumSq z j) nE - mean z j * mean z j

/-- The biased variance as mean of squared deviations. -/
def varR (z : Fin 1000000 → Fin 128 → EReal) (j : Fin 128) : EReal :=
  Ideal.div (∑ e : Fin 1000000, (z e j - mean z j) * (z e j - mean z j)) nE

/-- The inverse standard deviation of a variance. -/
def istd (v : EReal) : EReal := Ideal.rsqrt (v + eps)

/-- Normalise, rescale, rectify, contract with the second layer's column, add its bias. -/
def score (z : Fin 1000000 → Fin 128 → EReal) (mu sd g b w2 : Fin 128 → EReal) (b2 : EReal) (e : Fin 1000000) : EReal :=
  (∑ j : Fin 128, max ((z e j - mu j) * sd j * g j + b j) zeroLit * w2 j) + b2

/-- The result with the variance in the form mean of squares minus squared mean. -/
def outK (z : Fin 1000000 → Fin 128 → EReal) (g b w2 : Fin 128 → EReal) (b2 : EReal) (e : Fin 1000000) : EReal :=
  Ideal.logistic (score z (mean z) (fun j => istd (varK z j)) g b w2 b2 e)

/-- The result with the variance in the form mean of squared deviations. -/
def outR (z : Fin 1000000 → Fin 128 → EReal) (g b w2 : Fin 128 → EReal) (b2 : EReal) (e : Fin 1000000) : EReal :=
  Ideal.logistic (score z (mean z) (fun j => istd (varR z j)) g b w2 b2 e)

end Cert.Spec

end
-- ==== Proof.LibBlockSum.lean ====
/-
  Sums over an initial segment of a finite index range, taken block by block.
  For f : Fin N → M into an additive commutative monoid, `upto f n` is the sum of f over the indices
  below n.  It is zero at n = 0, it is the whole sum once n reaches N, and the sum over the first
  (k+1)·b indices is the sum over the first k·b indices plus the k-th block of b consecutive entries.
-/
import Mathlib.Algebra.BigOperators.Fin
import Mathlib.Algebra.BigOperators.Intervals

open scoped BigOperators

namespace Cert.BlockSum

variable {M : Type*} [AddCommMonoid M]

/-- The sum of `f` over the indices below `n`. -/
def upto {N : ℕ} (f : Fin N → M) (n : ℕ) : M := ∑ i : Fin N, if i.val < n then f i else 0

/-- The empty initial segment sums to zero. -/
theorem upto_zero {N : ℕ} (f : Fin N → M) : upto f 0 = 0 := by
  simp [upto]

/-- Once the bound reaches the size of the range, the initial segment is the whole range. -/
theorem upto_full {N : ℕ} (f : Fin N → M) (n : ℕ) (h : N ≤ n) : upto f n = ∑ i, f i := by
  unfold upto
  refine Finset.sum_congr rfl (fun i _ => ?_)
  rw [if_pos (lt_of_lt_of_le i.isLt h)]

/-- The k-th block of b consecutive indices lies inside the range when (k+1)·b ≤ N. -/
theorem block_lt {N k b : ℕ} (h : (k + 1) * b ≤ N) (j : Fin b) : k * b + j.val < N := by
  have hj := j.isLt
  rw [Nat.add_mul, Nat.one_mul] at h
  omega

/-- A sum over the first (k+1)·b indices is the sum over the first k·b indices plus the k-th block of b:
    Σ_{i < (k+1)·b} f i = Σ_{i < k·b} f i + Σ_{j < b} f (k·b + j). -/
theorem upto_add_block {N : ℕ} (f : Fin N → M) (k b : ℕ) (h : (k + 1) * b ≤ N) :
    upto f ((k + 1) * b) = upto f (k * b) + ∑ j : Fin b, f ⟨k * b + j.val, block_lt h j⟩ := by
  have hb : (k + 1) * b = k * b + b := by rw [Nat.add_mul, Nat.one_mul]
  -- the block, as the sum over the whole range of the entries with k·b ≤ i < k·b + b
  have hblock : (∑ j : Fin b, f ⟨k * b + j.val, block_lt h j⟩)
      = ∑ i : Fin N, if k * b ≤ i.val ∧ i.val < k * b + b then f i else 0 := by
    rw [← Finset.sum_filter]
    refine Finset.sum_bij (fun j _ => (⟨k * b + j.val, block_lt h j⟩ : Fin N)) ?_ ?_ ?_ ?_
    · intro j _
      simp only [Finset.mem_filter, Finset.mem_univ, true_and]
      have := j.isLt
      omega
    · intro j₁ _ j₂ _ he
      have := congrArg Fin.val he
      simp only at this
      exact Fin.ext (by omega)
    · intro i hi
      simp only [Finset.mem_filter, Finset.mem_univ, true_and] at hi
      exact ⟨⟨i.val - k * b, by omega⟩, Finset.mem_univ _, Fin.ext (by simp only; omega)⟩
    · intro j _
      rfl
  rw [hblock]
  unfold upto
  rw [← Finset.sum_add_distrib]
  refine Finset.sum_congr rfl (fun i _ => ?_)
  rw [hb]
  by_cases h1 : i.val < k * b
  · rw [if_pos (by omega), if_pos h1, if_neg (by omega), add_zero]
  · by_cases h2 : i.val < k * b + b
    · rw [if_pos h2, if_neg h1, if_pos ⟨by omega, h2⟩, zero_add]
    · rw [if_neg h2, if_neg h1, if_neg (by omega), add_zero]

end Cert.BlockSum
-- ==== Proof.R0Pieces.lean ====
import proofs.«155015_j11098195493028_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable {F : FTy → Type} [FloatOps F]

/-! What one grid point of the first kernel leaves in its three output blocks, as pure functions of the blocks it
    loads: the stored bf16 block is the linear layer's block `z`; the two accumulator blocks are the running column
    sums plus this block's column sum of `z` (resp. of `z·z`), the running value being the zero vector at the first
    point (where the body has just stored it) and the previous point's value afterwards. -/

theorem hz2 : (![0, 0] : Fin 2 → Nat) = fun _ => 0 := funext fun a => by fin_cases a <;> rfl
theorem hz1 : (![0] : Fin 1 → Nat) = fun _ => 0 := funext fun a => by fin_cases a; rfl

/-- A later point: the stored block. -/
theorem out_B_5 (c : Dev nD) (i : grid0.Coords) (a1 : Memref sig .tc .vmem S20000x128 .bf16) (h1 : a1.IsWhole) (a2 : Memref sig .tc .vmem S20000x128 .bf16) (h2 : a2.IsWhole) (a3 : Memref sig .tc .vmem S128x128 .bf16) (h3 : a3.IsWhole) (a4 : Memref sig .tc .vmem S128x128 .bf16) (h4 : a4.IsWhole) (a5 : Memref sig .tc .vmem S128 .f32) (h5 : a5.IsWhole) (a6 : Memref sig .tc .vmem S20000x128 .bf16) (h6 : a6.IsWhole) (a7 : Memref sig .tc .vmem S128 .f32) (h7 : a7.IsWhole) (a8 : Memref sig .tc .vmem S128 .f32) (h8 : a8.IsWhole) (hc : ¬cond0_0 i) (x0 : Vec F S20000x128 .bf16) (x1 : Vec F S20000x128 .bf16) (x2 : Vec F S128x128 .bf16) (x3 : Vec F S128x128 .bf16) (x4 : Vec F S128 .f32) (xo6 xo7 : Vec F S128 .f32) :
    out0_B_5 c i a1 h1 a2 h2 a3 h3 a4 h4 a5 h5 a6 h6 a7 h7 a8 h8 hc x0 x1 x2 x3 x4 xo6 xo7 = k0_pay4 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero hz2]
  simp only [View.readAt_eq_ld, h1.read_unread, h2.read_unread, h3.read_unread, h4.read_unread, h5.read_unread, h7.read_unread, h8.read_unread, View.ld_unit_zero (S := S20000x128) hz2, View.ld_unit_zero (S := S128x128) hz2, View.ld_unit_zero (S := S128) hz1]

/-- A later point: the running column sum plus this block's. -/
theorem out_B_6 (c : Dev nD) (i : grid0.Coords) (a1 : Memref sig .tc .vmem S20000x128 .bf16) (h1 : a1.IsWhole) (a2 : Memref sig .tc .vmem S20000x128 .bf16) (h2 : a2.IsWhole) (a3 : Memref sig .tc .vmem S128x128 .bf16) (h3 : a3.IsWhole) (a4 : Memref sig .tc .vmem S128x128 .bf16) (h4 : a4.IsWhole) (a5 : Memref sig .tc .vmem S128 .f32) (h5 : a5.IsWhole) (a6 : Memref sig .tc .vmem S20000x128 .bf16) (h6 : a6.IsWhole) (a7 : Memref sig .tc .vmem S128 .f32) (h7 : a7.IsWhole) (a8 : Memref sig .tc .vmem S128 .f32) (h8 : a8.IsWhole) (hc : ¬cond0_0 i) (x0 : Vec F S20000x128 .bf16) (x1 : Vec F S20000x128 .bf16) (x2 : Vec F S128x128 .bf16) (x3 : Vec F S128x128 .bf16) (x4 : Vec F S128 .f32) (xo6 xo7 : Vec F S128 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  rw [View.canon_unit_zero hz1]
  simp only [View.readAt_eq_ld, h1.read_unread, h2.read_unread, h3.read_unread, h4.read_unread, h5.read_unread, h7.read_unread, h8.read_unread, View.ld_unit_zero (S := S20000x128) hz2, View.ld_unit_zero (S := S128x128) hz2, View.ld_unit_zero (S := S128) hz1]

/-- A later point: the running column sum of squares plus this block's. -/
theorem out_B_7 (c : Dev nD) (i : grid0.Coords) (a1 : Memref sig .tc .vmem S20000x128 .bf16) (h1 : a1.IsWhole) (a2 : Memref sig .tc .vmem S20000x128 .bf16) (h2 : a2.IsWhole) (a3 : Memref sig .tc .vmem S128x128 .bf16) (h3 : a3.IsWhole) (a4 : Memref sig .tc .vmem S128x128 .bf16) (h4 : a4.IsWhole) (a5 : Memref sig .tc .vmem S128 .f32) (h5 : a5.IsWhole) (a6 : Memref sig .tc .vmem S20000x128 .bf16) (h6 : a6.IsWhole) (a7 : Memref sig .tc .vmem S128 .f32) (h7 : a7.IsWhole) (a8 : Memref sig .tc .vmem S128 .f32) (h8 : a8.IsWhole) (hc : ¬cond0_0 i) (x0 : Vec F S20000x128 .bf16) (x1 : Vec F S20000x128 .bf16) (x2 : Vec F S128x128 .bf16) (x3 : Vec F S128x128 .bf16) (x4 : Vec F S128 .f32) (xo6 xo7 : Vec F S128 .f32) :
    out0_B_7 c i a1 h1 a2 h2 a3 h3 a4 h4 a5 h5 a6 h6 a7 h7 a8 h8 hc x0 x1 x2 x3 x4 xo6 xo7 = k0_pay6 x0 x1 x2 x3 x4 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  rw [View.canon_unit_zero hz1]
  simp only [View.readAt_eq_ld, h1.read_unread, h2.read_unread, h3.read_unread, h4.read_unread, h5.read_unread, h7.read_unread, h8.read_unread, View.ld_unit_zero (S := S20000x128) hz2, View.ld_unit_zero (S := S128x128) hz2, View.ld_unit_zero (S := S128) hz1]

/-- The first point: the stored block. -/
theorem out_A_5 (c : Dev nD) (i : grid0.Coords) (a1 : Memref sig .tc .vmem S20000x128 .bf16) (h1 : a1.IsWhole) (a2 : Memref sig .tc .vmem S20000x128 .bf16) (h2 : a2.IsWhole) (a3 : Memref sig .tc .vmem S128x128 .bf16) (h3 : a3.IsWhole) (a4 : Memref sig .tc .vmem S128x128 .bf16) (h4 : a4.IsWhole) (a5 : Memref sig .tc .vmem S128 .f32) (h5 : a5.IsWhole) (a6 : Memref sig .tc .vmem S20000x128 .bf16) (h6 : a6.IsWhole) (a7 : Memref sig .tc .vmem S128 .f32) (h7 : a7.IsWhole) (a8 : Memref sig .tc .vmem S128 .f32) (h8 : a8.IsWhole) (hc : cond0_0 i) (x0 : Vec F S20000x128 .bf16) (x1 : Vec F S20000x128 .bf16) (x2 : Vec F S128x128 .bf16) (x3 : Vec F S128x128 .bf16) (x4 : Vec F S128 .f32) :
    out0_A_5 c i a1 h1 a2 h2 a3 h3 a4 h4 a5 h5 a6 h6 a7 h7 a8 h8 hc x0 x1 x2 x3 x4 = k0_pay4 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero hz2]
  simp only [View.readAt_eq_ld, h1.read_unread, h2.read_unread, h3.read_unread, h4.read_unread, h5.read_unread, View.ld_unit_zero (S := S20000x128) hz2, View.ld_unit_zero (S := S128x128) hz2, View.ld_unit_zero (S := S128) hz1]

/-- The first point: the zero vector just stored, plus this block's column sum. -/
theorem out_A_6 (c : Dev nD) (i : grid0.Coords) (a1 : Memref sig .tc .vmem S20000x128 .bf16) (h1 : a1.IsWhole) (a2 : Memref sig .tc .vmem S20000x128 .bf16) (h2 : a2.IsWhole) (a3 : Memref sig .tc .vmem S128x128 .bf16) (h3 : a3.IsWhole) (a4 : Memref sig .tc .vmem S128x128 .bf16) (h4 : a4.IsWhole) (a5 : Memref sig .tc .vmem S128 .f32) (h5 : a5.IsWhole) (a6 : Memref sig .tc .vmem S20000x128 .bf16) (h6 : a6.IsWhole) (a7 : Memref sig .tc .vmem S128 .f32) (h7 : a7.IsWhole) (a8 : Memref sig .tc .vmem S128 .f32) (h8 : a8.IsWhole) (hc : cond0_0 i) (x0 : Vec F S20000x128 .bf16) (x1 : Vec F S20000x128 .bf16) (x2 : Vec F S128x128 .bf16) (x3 : Vec F S128x128 .bf16) (x4 : Vec F S128 .f32) :
    out0_A_6 c i a1 h1 a2 h2 a3 h3 a4 h4 a5 h5 a6 h6 a7 h7 a8 h8 hc x0 x1 x2 x3 x4 = k0_pay5 x0 x1 x2 x3 x4 (k0_pay1 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, View.ld_unit_zero (S := S20000x128) hz2, View.ld_unit_zero (S := S128x128) hz2, View.ld_unit_zero (S := S128) hz1]

/-- The first point: the zero vector just stored, plus this block's column sum of squares. -/
theorem out_A_7 (c : Dev nD) (i : grid0.Coords) (a1 : Memref sig .tc .vmem S20000x128 .bf16) (h1 : a1.IsWhole) (a2 : Memref sig .tc .vmem S20000x128 .bf16) (h2 : a2.IsWhole) (a3 : Memref sig .tc .vmem S128x128 .bf16) (h3 : a3.IsWhole) (a4 : Memref sig .tc .vmem S128x128 .bf16) (h4 : a4.IsWhole) (a5 : Memref sig .tc .vmem S128 .f32) (h5 : a5.IsWhole) (a6 : Memref sig .tc .vmem S20000x128 .bf16) (h6 : a6.IsWhole) (a7 : Memref sig .tc .vmem S128 .f32) (h7 : a7.IsWhole) (a8 : Memref sig .tc .vmem S128 .f32) (h8 : a8.IsWhole) (hc : cond0_0 i) (x0 : Vec F S20000x128 .bf16) (x1 : Vec F S20000x128 .bf16) (x2 : Vec F S128x128 .bf16) (x3 : Vec F S128x128 .bf16) (x4 : Vec F S128 .f32) :
    out0_A_7 c i a1 h1 a2 h2 a3 h3 a4 h4 a5 h5 a6 h6 a7 h7 a8 h8 hc x0 x1 x2 x3 x4 = k0_pay6 x0 x1 x2 x3 x4 (k0_pay2 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, View.ld_unit_zero (S := S20000x128) hz2, View.ld_unit_zero (S := S128x128) hz2, View.ld_unit_zero (S := S128) hz1]

end Cert.KernelIdeal.Region0

end
-- ==== Proof.R0Point.lean ====
import proofs.«155015_j11098195493028_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Region0

open Cert.KernelIdeal Cert.KernelIdeal.Gen

/-! One grid point of the first kernel, read entry by entry over the extended reals.  With `x0`, `x1` the two
    20000×128 row blocks, `x2`, `x3` the two 128×128 weight halves and `x4` the bias:
      z (p, q)      = Σₖ x0 (p, k)·x2 (k, q) + Σₖ x1 (p, k)·x3 (k, q) + x4 q ,
    the stored block is `z` itself (a change of float format is the identity), and the two accumulators are
      acc q + Σₚ z (p, q)      and      acc q + Σₚ z (p, q)·z (p, q). -/

theorem lhs_row (i : S20000x128.Idx) (k : dot_S20000x128_S128x128_S20000x128_1_0_0_1_n_n.contr.Idx) : (dot_S20000x128_S128x128_S20000x128_1_0_0_1_n_n.lhsIdx i k 0).val = (i 0).val := by
  unfold DotDims.lhsIdx
  rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
  rfl
theorem lhs_col (i : S20000x128.Idx) (k : dot_S20000x128_S128x128_S20000x128_1_0_0_1_n_n.contr.Idx) : (dot_S20000x128_S128x128_S20000x128_1_0_0_1_n_n.lhsIdx i k 1).val = (k ⟨0, by decide⟩).val :=
  dot_S20000x128_S128x128_S20000x128_1_0_0_1_n_n.lhsIdx_val_of_single rfl i k
theorem rhs_row (i : S20000x128.Idx) (k : dot_S20000x128_S128x128_S20000x128_1_0_0_1_n_n.contr.Idx) : (dot_S20000x128_S128x128_S20000x128_1_0_0_1_n_n.rhsIdx i k 0).val = (k ⟨0, by decide⟩).val :=
  dot_S20000x128_S128x128_S20000x128_1_0_0_1_n_n.rhsIdx_val_of_single rfl i k
theorem rhs_col (i : S20000x128.Idx) (k : dot_S20000x128_S128x128_S20000x128_1_0_0_1_n_n.contr.Idx) : (dot_S20000x128_S128x128_S20000x128_1_0_0_1_n_n.rhsIdx i k 1).val = (i 1).val := by
  unfold DotDims.rhsIdx
  rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
  rfl

/-- A block times a weight half into the zero accumulator: entry `(p, q)` is the row-by-column sum. -/
theorem matmul_at (lhs : FVec Ideal S20000x128 .bf16) (rhs : FVec Ideal S128x128 .bf16) (p : Fin 20000) (q : Fin 128) :
    matmul dot_S20000x128_S128x128_S20000x128_1_0_0_1_n_n none lhs rhs (constant (F := Ideal) S20000x128 .f32 0x00000000#32) (ix2 p q)
      = ∑ k : Fin 128, (lhs (ix2 p k) : EReal) * (rhs (ix2 k q) : EReal) := by
  simp only [matmul]
  rw [Ideal.matmul_constant_zero_apply, ← Equiv.sum_comp (contrEquiv1 dot_S20000x128_S128x128_S20000x128_1_0_0_1_n_n 128 rfl rfl).symm]
  refine Finset.sum_congr rfl fun k _ => ?_
  have hk := contrEquiv1_symm_val dot_S20000x128_S128x128_S20000x128_1_0_0_1_n_n 128 rfl rfl k
  have el : dot_S20000x128_S128x128_S20000x128_1_0_0_1_n_n.lhsIdx (ix2 p q) ((contrEquiv1 dot_S20000x128_S128x128_S20000x128_1_0_0_1_n_n 128 rfl rfl).symm k) = ix2 p k := funext fun a => Fin.ext (by
    match a with
    | ⟨0, _⟩ => exact lhs_row _ _
    | ⟨1, _⟩ => exact (lhs_col _ _).trans hk)
  have er : dot_S20000x128_S128x128_S20000x128_1_0_0_1_n_n.rhsIdx (ix2 p q) ((contrEquiv1 dot_S20000x128_S128x128_S20000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The linear layer's block at `(p, q)`. -/
theorem pay3_at (x0 x1 : FVec Ideal S20000x128 .bf16) (x2 x3 : FVec Ideal S128x128 .bf16) (x4 : FVec Ideal S128 .f32)
    (p : Fin 20000) (q : Fin 128) :
    (k0_pay3 (F := Ideal) x0 x1 x2 x3 x4 (ix2 p q) : EReal)
      = ((∑ k : Fin 128, (x0 (ix2 p k) : EReal) * (x2 (ix2 k q) : EReal)) + (∑ k : Fin 128, (x1 (ix2 p k) : EReal) * (x3 (ix2 k q) : EReal)))
        + (x4 (ix1 q) : EReal) := by
  unfold k0_pay3
  simp only [shapeCast_self]
  rw [addf_apply, addf_apply, matmul_at, matmul_at, broadcastTo_1b_ab_apply, shapeCast_a_1a_apply]

/-- The stored block is the linear layer's block (a change of float format is the identity). -/
theorem pay4_at (x0 x1 : FVec Ideal S20000x128 .bf16) (x2 x3 : FVec Ideal S128x128 .bf16) (x4 : FVec Ideal S128 .f32)
    (i : S20000x128.Idx) :
    (k0_pay4 (F := Ideal) x0 x1 x2 x3 x4 i : EReal) = (k0_pay3 (F := Ideal) x0 x1 x2 x3 x4 i : EReal) := rfl

/-- A sum down the 20000 rows of a block, from the zero accumulator, at column `q`. -/
theorem colsum_at (src : FVec Ideal S20000x128 .f32) (hφ : FKind.Formats .f32)
    (hacc : (0x00000000#32 : BitVec 32) = FKind.add.neutral .f32 hφ) (q : Fin 128) :
    (multiReduction .add [0] S128 src 0x00000000#32 reduces_S20000x128_S128 hφ hacc (ix1 q) : EReal) = ∑ p : Fin 20000, (src (ix2 p q) : EReal) := by
  refine (Ideal.multiReduction_add_single src 0x00000000#32 reduces_S20000x128_S128 hφ hacc (ix1 q)).trans ?_
  refine Finset.sum_congr rfl fun p _ => congrArg src (funext fun a => Fin.ext ?_)
  match a with
  | ⟨0, _⟩ => rfl
  | ⟨1, _⟩ => rfl

/-- The column-sum accumulator after a point. -/
theorem pay5_at (x0 x1 : FVec Ideal S20000x128 .bf16) (x2 x3 : FVec Ideal S128x128 .bf16) (x4 : FVec Ideal S128 .f32)
    (acc : FVec Ideal S128 .f32) (q : Fin 128) :
    (k0_pay5 (F := Ideal) x0 x1 x2 x3 x4 acc (ix1 q) : EReal)
      = (acc (ix1 q) : EReal) + ∑ p : Fin 20000, (k0_pay3 (F := Ideal) x0 x1 x2 x3 x4 (ix2 p q) : EReal) := by
  unfold k0_pay5
  simp only [shapeCast_self]
  rw [addf_apply]
  exact congrArg (acc (ix1 q) + ·) (colsum_at _ _ _ q)

/-- The column-sum-of-squares accumulator after a point. -/
theorem pay6_at (x0 x1 : FVec Ideal S20000x128 .bf16) (x2 x3 : FVec Ideal S128x128 .bf16) (x4 : FVec Ideal S128 .f32)
    (acc : FVec Ideal S128 .f32) (q : Fin 128) :
    (k0_pay6 (F := Ideal) x0 x1 x2 x3 x4 acc (ix1 q) : EReal)
      = (acc (ix1 q) : EReal) + ∑ p : Fin 20000, (k0_pay3 (F := Ideal) x0 x1 x2 x3 x4 (ix2 p q) : EReal) * (k0_pay3 (F := Ideal) x0 x1 x2 x3 x4 (ix2 p q) : EReal) := by
  unfold k0_pay6
  simp only [shapeCast_self]
  rw [addf_apply]
  exact congrArg (acc (ix1 q) + ·) ((colsum_at _ _ _ q).trans (Finset.sum_congr rfl fun p _ => mulf_apply _ _ _))

/-- The vector the first point stores into either accumulator is zero everywhere. -/
theorem pay1_at (q : Fin 128) : (k0_pay1 (F := Ideal) (ix1 q) : EReal) = 0 := by
  unfold k0_pay1
  exact Ideal.ofBits_zero_f32
theorem pay2_at (q : Fin 128) : (k0_pay2 (F := Ideal) (ix1 q) : EReal) = 0 := by
  unfold k0_pay2
  exact Ideal.ofBits_zero_f32

end Cert.KernelIdeal.Region0

end
-- ==== Proof.R0Acc.lean ====
import proofs.«155015_j11098195493028_2_alg».proof.Proof.Gen.KernelIdeal.Frame
import proofs.«155015_j11098195493028_2_alg».proof.Proof.Spec
import proofs.«155015_j11098195493028_2_alg».proof.Proof.LibBlockSum
import proofs.«155015_j11098195493028_2_alg».proof.Proof.R0Pieces
import proofs.«155015_j11098195493028_2_alg».proof.Proof.R0Point
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open Cert.BlockSum

namespace Cert.KernelIdeal.Region0

open Cert.KernelIdeal Cert.KernelIdeal.Gen

variable (V : (c : Dev nD) → (b : Ref sig .tc) → Buf (Elt Ideal) ((c : Thread nD τ).loc b)) (c : Dev nD)

/-! The first kernel's three result arrays as whole-array functions.  Row `p` of the block at grid point `t` is
    edge `20000·t + p`, so the stored array is the linear layer `Z` of all edges, and the accumulators, which add one
    block's column sums per point starting from zero, end at the column sums over all 1000000 edges. -/

def xu : Fin 1000000 → Fin 128 → EReal := fun e k => (V c main_v8 : S1000000x128.Idx → EReal) (ix2 e k)
def xf : Fin 1000000 → Fin 128 → EReal := fun e k => (V c main_v15 : S1000000x128.Idx → EReal) (ix2 e k)
def wa : Fin 128 → Fin 128 → EReal := fun k j => (V c main_v17 : S128x128.Idx → EReal) (ix2 k j)
def wb : Fin 128 → Fin 128 → EReal := fun k j => (V c main_v19 : S128x128.Idx → EReal) (ix2 k j)
def b1 : Fin 128 → EReal := fun j => (V c main_arg3 : S128.Idx → EReal) (ix1 j)
/-- The linear layer of all edges, from the arrays the region finds. -/
def Z : Fin 1000000 → Fin 128 → EReal := Cert.Spec.lin (xu V c) (xf V c) (wa V c) (wb V c) (b1 V c)

/-- Where each window's block sits at grid point `t`: the row blocks at block row `t`, the small operands and
    the two accumulators at block 0. -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 1) = 0
  ∧ win0_5.index t (0 : Fin 2) = t.val ∧ win0_5.index t (1 : Fin 2) = 0
  ∧ win0_6.index t (0 : Fin 1) = 0 ∧ win0_7.index t (0 : Fin 1) = 0 :=
  (by decide +kernel : ∀ t : Fin grid0.N, _)

/-- Row `p` of the user block at point `t` is edge `20000·t + p`. -/
theorem blk0_at (t : Fin cfg0.N) (p : Fin 20000) (k : Fin 128) (h : t.val * 20000 + p.val < 1000000) :
    (iblk0 V c 0 t : S20000x128.Idx → EReal) (ix2 p k) = xu V c ⟨t.val * 20000 + p.val, h⟩ k := by
  unfold iblk0 xu
  rw [View.read_apply]
  show (V c main_v8 : S1000000x128.Idx → EReal) _ = V c main_v8 _
  refine congrArg (V c main_v8 : S1000000x128.Idx → EReal) (funext fun a => Fin.ext ?_)
  match a with
  | ⟨0, _⟩ => show win0_0.index t (0 : Fin 2) * 20000 + 1 * p.val = t.val * 20000 + p.val; rw [(idx_facts t).1]; omega
  | ⟨1, _⟩ => show win0_0.index t (1 : Fin 2) * 128 + 1 * k.val = k.val; rw [(idx_facts t).2.1]; omega

/-- Row `p` of the food block at point `t` is edge `20000·t + p`. -/
theorem blk1_at (t : Fin cfg0.N) (p : Fin 20000) (k : Fin 128) (h : t.val * 20000 + p.val < 1000000) :
    (iblk0 V c 1 t : S20000x128.Idx → EReal) (ix2 p k) = xf V c ⟨t.val * 20000 + p.val, h⟩ k := by
  unfold iblk0 xf
  rw [View.read_apply]
  show (V c main_v15 : S1000000x128.Idx → EReal) _ = V c main_v15 _
  refine congrArg (V c main_v15 : S1000000x128.Idx → EReal) (funext fun a => Fin.ext ?_)
  match a with
  | ⟨0, _⟩ => show win0_1.index t (0 : Fin 2) * 20000 + 1 * p.val = t.val * 20000 + p.val; rw [(idx_facts t).2.2.1]; omega
  | ⟨1, _⟩ => show win0_1.index t (1 : Fin 2) * 128 + 1 * k.val = k.val; rw [(idx_facts t).2.2.2.1]; omega

/-- The upper weight half is read whole at every point. -/
theorem blk2_at (t : Fin cfg0.N) (k j : Fin 128) :
    (iblk0 V c 2 t : S128x128.Idx → EReal) (ix2 k j) = wa V c k j := by
  unfold iblk0 wa
  rw [View.read_apply]
  show (V c main_v17 : S128x128.Idx → EReal) _ = V c main_v17 _
  refine congrArg (V c main_v17 : S128x128.Idx → EReal) (funext fun a => Fin.ext ?_)
  match a with
  | ⟨0, _⟩ => show win0_2.index t (0 : Fin 2) * 128 + 1 * k.val = k.val; rw [(idx_facts t).2.2.2.2.1]; omega
  | ⟨1, _⟩ => show win0_2.index t (1 : Fin 2) * 128 + 1 * j.val = j.val; rw [(idx_facts t).2.2.2.2.2.1]; omega

/-- The lower weight half is read whole at every point. -/
theorem blk3_at (t : Fin cfg0.N) (k j : Fin 128) :
    (iblk0 V c 3 t : S128x128.Idx → EReal) (ix2 k j) = wb V c k j := by
  unfold iblk0 wb
  rw [View.read_apply]
  show (V c main_v19 : S128x128.Idx → EReal) _ = V c main_v19 _
  refine congrArg (V c main_v19 : S128x128.Idx → EReal) (funext fun a => Fin.ext ?_)
  match a with
  | ⟨0, _⟩ => show win0_3.index t (0 : Fin 2) * 128 + 1 * k.val = k.val; rw [(idx_facts t).2.2.2.2.2.2.1]; omega
  | ⟨1, _⟩ => show win0_3.index t (1 : Fin 2) * 128 + 1 * j.val = j.val; rw [(idx_facts t).2.2.2.2.2.2.2.1]; omega

/-- The bias is read whole at every point. -/
theorem blk4_at (t : Fin cfg0.N) (j : Fin 128) :
    (iblk0 V c 4 t : S128.Idx → EReal) (ix1 j) = b1 V c j := by
  unfold iblk0 b1
  rw [View.read_apply]
  show (V c main_arg3 : S128.Idx → EReal) _ = V c main_arg3 _
  refine congrArg (V c main_arg3 : S128.Idx → EReal) (funext fun a => Fin.ext ?_)
  match a with
  | ⟨0, _⟩ => show win0_4.index t (0 : Fin 1) * 128 + 1 * j.val = j.val; rw [(idx_facts t).2.2.2.2.2.2.2.2.1]; omega

/-- The linear layer's block at point `t`, row `p`, is `Z` at edge `20000·t + p`. -/
theorem zb_at (t : Fin cfg0.N) (p : Fin 20000) (q : Fin 128) (h : t.val * 20000 + p.val < 1000000) :
    (k0_pay3 (F := Ideal) (iblk0 V c 0 t) (iblk0 V c 1 t) (iblk0 V c 2 t) (iblk0 V c 3 t) (iblk0 V c 4 t) (ix2 p q) : EReal) = Z V c ⟨t.val * 20000 + p.val, h⟩ q := by
  refine (pay3_at (iblk0 V c 0 t) (iblk0 V c 1 t) (iblk0 V c 2 t) (iblk0 V c 3 t) (iblk0 V c 4 t) p q).trans ?_
  unfold Z Cert.Spec.lin
  refine congrArg₂ (· + ·) (congrArg₂ (· + ·) (Finset.sum_congr rfl fun k _ => ?_) (Finset.sum_congr rfl fun k _ => ?_)) ?_
  · exact congrArg₂ (· * ·) (blk0_at V c t p k h) (blk2_at V c t k q)
  · exact congrArg₂ (· * ·) (blk1_at V c t p k h) (blk3_at V c t k q)
  · exact blk4_at V c t q

/-- One accumulation step: the sum over the first `n` blocks plus block `n` is the sum over the first `n + 1`. -/
theorem step_sum (f : Fin 1000000 → EReal) (n : ℕ) (hn : (n + 1) * 20000 ≤ 1000000) (prev : EReal)
    (hprev : prev = upto f (n * 20000)) (g : Fin 20000 → EReal)
    (hg : ∀ p : Fin 20000, g p = f ⟨n * 20000 + p.val, block_lt hn p⟩) :
    prev + ∑ p : Fin 20000, g p = upto f ((n + 1) * 20000) := by
  rw [upto_add_block f n 20000 hn, hprev]
  exact congrArg _ (Finset.sum_congr rfl fun p _ => hg p)

theorem N50 : cfg0.N = 50 := N_0

/-- After point `n` the two accumulators hold the column sums of `Z` and of `Z·Z` over the first
    `(n + 1)·20000` edges: by induction on the point. -/
theorem acc_eq : ∀ (n : ℕ) (h : n < cfg0.N) (q : Fin 128),
    (((outsAt0 V c n h).2.1 : S128.Idx → EReal) (ix1 q) = upto (fun e => Z V c e q) ((n + 1) * 20000))
  ∧ (((outsAt0 V c n h).2.2 : S128.Idx → EReal) (ix1 q) = upto (fun e => Z V c e q * Z V c e q) ((n + 1) * 20000))
  | 0, h, q => by
    have hlt : ∀ p : Fin 20000, (⟨0, h⟩ : Fin cfg0.N).val * 20000 + p.val < 1000000 := fun p => by
      have := p.isLt; show 0 * 20000 + p.val < 1000000; omega
    rw [outsAt0_A V c ⟨0, h⟩ rfl]
    dsimp only
    rw [out_A_6, out_A_7]
    constructor
    · refine (pay5_at (iblk0 V c 0 ⟨0, h⟩) (iblk0 V c 1 ⟨0, h⟩) (iblk0 V c 2 ⟨0, h⟩) (iblk0 V c 3 ⟨0, h⟩) (iblk0 V c 4 ⟨0, h⟩) (k0_pay1 (F := Ideal)) q).trans ?_
      refine step_sum (fun e => Z V c e q) 0 (by norm_num) _ ?_ _ (fun p => zb_at V c ⟨0, h⟩ p q (hlt p))
      rw [pay1_at, Nat.zero_mul, upto_zero]
    · refine (pay6_at (iblk0 V c 0 ⟨0, h⟩) (iblk0 V c 1 ⟨0, h⟩) (iblk0 V c 2 ⟨0, h⟩) (iblk0 V c 3 ⟨0, h⟩) (iblk0 V c 4 ⟨0, h⟩) (k0_pay2 (F := Ideal)) q).trans ?_
      refine step_sum (fun e => Z V c e q * Z V c e q) 0 (by norm_num) _ ?_ _ (fun p => ?_)
      · rw [pay2_at, Nat.zero_mul, upto_zero]
      · exact congrArg₂ (· * ·) (zb_at V c ⟨0, h⟩ p q (hlt p)) (zb_at V c ⟨0, h⟩ p q (hlt p))
  | n + 1, h, q => by
    have hN : cfg0.N = 50 := N_0
    have hn : n + 1 < 50 := hN ▸ h
    have hlt : ∀ p : Fin 20000, (⟨n + 1, h⟩ : Fin cfg0.N).val * 20000 + p.val < 1000000 := fun p => by
      have := p.isLt; show (n + 1) * 20000 + p.val < 1000000; omega
    have hB : ¬(⟨n + 1, h⟩ : Fin cfg0.N).val % 50 = 0 := by dsimp only; omega
    obtain ⟨ih1, ih2⟩ := acc_eq n (Nat.lt_of_succ_lt h) q
    rw [outsAt0_B V c ⟨n + 1, h⟩ hB]
    dsimp only
    rw [out_B_6, out_B_7]
    constructor
    · refine (pay5_at (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c n (Nat.lt_of_succ_lt h)).2.1 q).trans ?_
      exact step_sum (fun e => Z V c e q) (n + 1) (by omega) _ ih1 _ (fun p => zb_at V c ⟨n + 1, h⟩ p q (hlt p))
    · refine (pay6_at (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c n (Nat.lt_of_succ_lt h)).2.2 q).trans ?_
      exact step_sum (fun e => Z V c e q * Z V c e q) (n + 1) (by omega) _ ih2 _
        (fun p => congrArg₂ (· * ·) (zb_at V c ⟨n + 1, h⟩ p q (hlt p)) (zb_at V c ⟨n + 1, h⟩ p q (hlt p)))

end Cert.KernelIdeal.Region0

end
-- ==== Proof.R0Final.lean ====
import proofs.«155015_j11098195493028_2_alg».proof.Proof.R0Acc

noncomputable section

open Idealize.ShloMosaic Idealize.ShloMosaic.TcCoe Idealize.SL.Sem Idealize.ShloMosaic.ValueIdx
open Idealize.ShloMosaic.Pipeline (Dat)
open Cert.BlockSum

namespace Cert.KernelIdeal.Region0

open Cert.KernelIdeal Cert.KernelIdeal.Gen

variable (V : (c : Dev nD) → (b : Ref sig .tc) → Buf (Elt Ideal) ((c : Thread nD τ).loc b)) (c : Dev nD)

/-! From blocks to arrays.  The stored array is written one row block per point and the blocks tile it; each
    accumulator array is one block, written back once, after the last point. -/

/-- What every point leaves in the stored block: the linear layer's block. -/
theorem stored_eq (t : Fin cfg0.N) : (outsAt0 V c t.val t.isLt).1 = k0_pay4 (F := Ideal) (iblk0 V c 0 t) (iblk0 V c 1 t) (iblk0 V c 2 t) (iblk0 V c 3 t) (iblk0 V c 4 t) := by
  by_cases h0 : t.val % 50 = 0
  · rw [outsAt0_A V c t h0]
    dsimp only
    rw [out_A_5]
  · rw [outsAt0_B V c t h0]
    dsimp only
    rw [out_B_5]

/-- Point `t` writes back rows `20000·t … 20000·t + 19999` of `Z`. -/
theorem flushed5_eq (t : Fin cfg0.N) :
    (dat0 V c).flushed 5 t = ((cfg0.win 5).blk t).view.read (Elt Ideal) (fun i : S1000000x128.Idx => Z V c (i 0) (i 1)) := by
  show (cfg0.win 5).cut (grid0.coords t) ((dat0 V c).after 5 t) = _
  rw [after0_5, stored_eq]
  funext j
  rw [View.read_apply]
  have hj0 : (j 0).val < 20000 := (j 0).isLt
  have hN : cfg0.N = 50 := N_0
  have ht := t.isLt
  have hlt : t.val * 20000 + (j 0).val < 1000000 := by omega
  show (k0_pay4 (F := Ideal) (iblk0 V c 0 t) (iblk0 V c 1 t) (iblk0 V c 2 t) (iblk0 V c 3 t) (iblk0 V c 4 t) j : EReal) = _
  refine ((pay4_at (iblk0 V c 0 t) (iblk0 V c 1 t) (iblk0 V c 2 t) (iblk0 V c 3 t) (iblk0 V c 4 t) j).trans ((congrArg (k0_pay3 (F := Ideal) (iblk0 V c 0 t) (iblk0 V c 1 t) (iblk0 V c 2 t) (iblk0 V c 3 t) (iblk0 V c 4 t)) (eq_ix2 j)).trans (zb_at V c t (j 0) (j 1) hlt))).trans ?_
  show Z V c ⟨t.val * 20000 + (j 0).val, hlt⟩ (j 1) = Z V c ((((cfg0.win 5).blk t).view.emb j) 0) ((((cfg0.win 5).blk t).view.emb j) 1)
  refine congrArg₂ (Z V c) (Fin.ext ?_) (Fin.ext ?_)
  · show t.val * 20000 + (j 0).val = win0_5.index t (0 : Fin 2) * 20000 + 1 * (j 0).val
    rw [(idx_facts t).2.2.2.2.2.2.2.2.2.1]; omega
  · show (j 1).val = win0_5.index t (1 : Fin 2) * 128 + 1 * (j 1).val
    rw [(idx_facts t).2.2.2.2.2.2.2.2.2.2.1]; omega

/-- An index is in point `t`'s stored block iff each coordinate is in the block's range. -/
theorem mem_blk5 (t : Fin cfg0.N) (i : S1000000x128.Idx) :
    i ∈ ((cfg0.win 5).blk t).view.set ↔ ∀ a : Fin 2, win0_5.index t a * S20000x128.size a ≤ (i a).val ∧ (i a).val < win0_5.index t a * S20000x128.size a + S20000x128.size a := by
  show i ∈ ((View.whole main_v20_0).slice (win0_5.rect t)).set ↔ _
  rw [View.set_slice_whole, Rect.mem_set_unit]
  exact Iff.rfl

/-- THE STORED ARRAY after the region: the linear layer of all edges. -/
theorem z1_final : (dat0 V c).arrAt 5 cfg0.N = (fun i : S1000000x128.Idx => Z V c (i 0) (i 1)) :=
  (dat0 V c).arrAt_eq_of_cover 5 _ (fun t _ => flushed5_eq V c t) (fun i => by
    have hi0 : (i 0).val < 1000000 := (i 0).isLt
    have hi1 : (i 1).val < 128 := (i 1).isLt
    have hN : cfg0.N = 50 := N_0
    have hlt : (i 0).val / 20000 < cfg0.N := by omega
    refine ⟨⟨(i 0).val / 20000, hlt⟩, flush0_5 _, ?_⟩
    rw [mem_blk5]
    have e0 : win0_5.index ⟨(i 0).val / 20000, hlt⟩ (0 : Fin 2) = (i 0).val / 20000 := (idx_facts ⟨(i 0).val / 20000, hlt⟩).2.2.2.2.2.2.2.2.2.1
    have e1 : win0_5.index ⟨(i 0).val / 20000, hlt⟩ (1 : Fin 2) = 0 := (idx_facts ⟨(i 0).val / 20000, hlt⟩).2.2.2.2.2.2.2.2.2.2.1
    intro a
    match a with
    | ⟨0, _⟩ =>
      show win0_5.index ⟨(i 0).val / 20000, hlt⟩ (0 : Fin 2) * 20000 ≤ (i 0).val ∧ (i 0).val < win0_5.index ⟨(i 0).val / 20000, hlt⟩ (0 : Fin 2) * 20000 + 20000
      rw [e0]; omega
    | ⟨1, _⟩ =>
      show win0_5.index ⟨(i 0).val / 20000, hlt⟩ (1 : Fin 2) * 128 ≤ (i 1).val ∧ (i 1).val < win0_5.index ⟨(i 0).val / 20000, hlt⟩ (1 : Fin 2) * 128 + 128
      rw [e1]; omega)

/-- Once all 50 blocks are in, the running column sum is the column sum over all edges. -/
theorem colsum_full (q : Fin 128) (n : ℕ) (h : 1000000 ≤ (n + 1) * 20000) :
    upto (fun e => Z V c e q) ((n + 1) * 20000) = Cert.Spec.colSum (Z V c) q := by
  unfold Cert.Spec.colSum
  exact upto_full _ _ h

/-- The same for the squares. -/
theorem colsumsq_full (q : Fin 128) (n : ℕ) (h : 1000000 ≤ (n + 1) * 20000) :
    upto (fun e => Z V c e q * Z V c e q) ((n + 1) * 20000) = Cert.Spec.colSumSq (Z V c) q := by
  unfold Cert.Spec.colSumSq
  exact upto_full _ _ h

/-- The accumulator blocks are their whole arrays: coordinate `j` of the block is coordinate `j` of the array. -/
theorem blk6_coord (t : Fin cfg0.N) (j : S128.Idx) : (((cfg0.win 6).blk t).view.emb j) 0 = j 0 := Fin.ext (by
  show win0_6.index t (0 : Fin 1) * 128 + 1 * (j 0).val = (j 0).val
  rw [(idx_facts t).2.2.2.2.2.2.2.2.2.2.2.1]; omega)
theorem blk7_coord (t : Fin cfg0.N) (j : S128.Idx) : (((cfg0.win 7).blk t).view.emb j) 0 = j 0 := Fin.ext (by
  show win0_7.index t (0 : Fin 1) * 128 + 1 * (j 0).val = (j 0).val
  rw [(idx_facts t).2.2.2.2.2.2.2.2.2.2.2.2]; omega)

/-- The one write-back of the column-sum accumulator, after the last point: whatever function of the column the
    accumulator holds then is what the array's block receives. -/
theorem flushed6_of (g : Fin 128 → EReal) (t : Fin cfg0.N)
    (hg : ∀ q : Fin 128, ((outsAt0 V c t.val t.isLt).2.1 : S128.Idx → EReal) (ix1 q) = g q) :
    (dat0 V c).flushed 6 t = ((cfg0.win 6).blk t).view.read (Elt Ideal) (fun i : S128.Idx => g (i 0)) := by
  show (cfg0.win 6).cut (grid0.coords t) ((dat0 V c).after 6 t) = _
  rw [after0_6]
  funext j
  rw [View.read_apply]
  exact ((congrArg ((outsAt0 V c t.val t.isLt).2.1 : S128.Idx → EReal) (eq_ix1 j)).trans (hg (j 0))).trans
    (congrArg g (blk6_coord t j).symm)

/-- The same for the sum-of-squares accumulator. -/
theorem flushed7_of (g : Fin 128 → EReal) (t : Fin cfg0.N)
    (hg : ∀ q : Fin 128, ((outsAt0 V c t.val t.isLt).2.2 : S128.Idx → EReal) (ix1 q) = g q) :
    (dat0 V c).flushed 7 t = ((cfg0.win 7).blk t).view.read (Elt Ideal) (fun i : S128.Idx => g (i 0)) := by
  show (cfg0.win 7).cut (grid0.coords t) ((dat0 V c).after 7 t) = _
  rw [after0_7]
  funext j
  rw [View.read_apply]
  exact ((congrArg ((outsAt0 V c t.val t.isLt).2.2 : S128.Idx → EReal) (eq_ix1 j)).trans (hg (j 0))).trans
    (congrArg g (blk7_coord t j).symm)

/-- After the last point the column-sum accumulator holds the column sums of `Z` over all edges. -/
theorem flushed6_eq (t : Fin cfg0.N) (hf : (cfg0.win 6).flush t = true) :
    (dat0 V c).flushed 6 t = ((cfg0.win 6).blk t).view.read (Elt Ideal) (fun i : S128.Idx => Cert.Spec.colSum (Z V c) (i 0)) := by
  have hN : cfg0.N = 50 := N_0
  have h49 : t.val = 49 := by have := (flush0_6 t).mp hf; have := t.isLt; omega
  have hfull : 1000000 ≤ (t.val + 1) * 20000 := by omega
  exact flushed6_of V c (Cert.Spec.colSum (Z V c)) t (fun q => (acc_eq V c t.val t.isLt q).1.trans (colsum_full V c q t.val hfull))

/-- The same for the sum of squares. -/
theorem flushed7_eq (t : Fin cfg0.N) (hf : (cfg0.win 7).flush t = true) :
    (dat0 V c).flushed 7 t = ((cfg0.win 7).blk t).view.read (Elt Ideal) (fun i : S128.Idx => Cert.Spec.colSumSq (Z V c) (i 0)) := by
  have hN : cfg0.N = 50 := N_0
  have h49 : t.val = 49 := by have := (flush0_7 t).mp hf; have := t.isLt; omega
  have hfull : 1000000 ≤ (t.val + 1) * 20000 := by omega
  exact flushed7_of V c (Cert.Spec.colSumSq (Z V c)) t (fun q => (acc_eq V c t.val t.isLt q).2.trans (colsumsq_full V c q t.val hfull))

theorem mem_blk6 (t : Fin cfg0.N) (i : S128.Idx) :
    i ∈ ((cfg0.win 6).blk t).view.set ↔ ∀ a : Fin 1, win0_6.index t a * S128.size a ≤ (i a).val ∧ (i a).val < win0_6.index t a * S128.size a + S128.size a := by
  show i ∈ ((View.whole main_v20_1).slice (win0_6.rect t)).set ↔ _
  rw [View.set_slice_whole, Rect.mem_set_unit]
  exact Iff.rfl

theorem mem_blk7 (t : Fin cfg0.N) (i : S128.Idx) :
    i ∈ ((cfg0.win 7).blk t).view.set ↔ ∀ a : Fin 1, win0_7.index t a * S128.size a ≤ (i a).val ∧ (i a).val < win0_7.index t a * S128.size a + S128.size a := by
  show i ∈ ((View.whole main_v20_2).slice (win0_7.rect t)).set ↔ _
  rw [View.set_slice_whole, Rect.mem_set_unit]
  exact Iff.rfl

/-- THE COLUMN-SUM ARRAY after the region. -/
theorem sum_final : (dat0 V c).arrAt 6 cfg0.N = (fun i : S128.Idx => Cert.Spec.colSum (Z V c) (i 0)) :=
  (dat0 V c).arrAt_eq_of_cover 6 _ (flushed6_eq V c) (fun i => by
    have hi0 : (i 0).val < 128 := (i 0).isLt
    have hN : cfg0.N = 50 := N_0
    have h49 : 49 < cfg0.N := by omega
    refine ⟨⟨49, h49⟩, (flush0_6 ⟨49, h49⟩).mpr rfl, ?_⟩
    rw [mem_blk6]
    have e0 : win0_6.index ⟨49, h49⟩ (0 : Fin 1) = 0 := (idx_facts ⟨49, h49⟩).2.2.2.2.2.2.2.2.2.2.2.1
    intro a
    match a with
    | ⟨0, _⟩ =>
      show win0_6.index ⟨49, h49⟩ (0 : Fin 1) * 128 ≤ (i 0).val ∧ (i 0).val < win0_6.index ⟨49, h49⟩ (0 : Fin 1) * 128 + 128
      rw [e0]; omega)

/-- THE COLUMN-SUM-OF-SQUARES ARRAY after the region. -/
theorem sumsq_final : (dat0 V c).arrAt 7 cfg0.N = (fun i : S128.Idx => Cert.Spec.colSumSq (Z V c) (i 0)) :=
  (dat0 V c).arrAt_eq_of_cover 7 _ (flushed7_eq V c) (fun i => by
    have hi0 : (i 0).val < 128 := (i 0).isLt
    have hN : cfg0.N = 50 := N_0
    have h49 : 49 < cfg0.N := by omega
    refine ⟨⟨49, h49⟩, (flush0_7 ⟨49, h49⟩).mpr rfl, ?_⟩
    rw [mem_blk7]
    have e0 : win0_7.index ⟨49, h49⟩ (0 : Fin 1) = 0 := (idx_facts ⟨49, h49⟩).2.2.2.2.2.2.2.2.2.2.2.2
    intro a
    match a with
    | ⟨0, _⟩ =>
      show win0_7.index ⟨49, h49⟩ (0 : Fin 1) * 128 ≤ (i 0).val ∧ (i 0).val < win0_7.index ⟨49, h49⟩ (0 : Fin 1) * 128 + 128
      rw [e0]; omega)

end Cert.KernelIdeal.Region0

end
-- ==== Proof.Region1.lean ====
/-
  The second region of the kernel, read as mathematics over the extended reals.

  The region runs over 50 grid points. At point t it loads rows 20000·t … 20000·t + 19999 of the stored
  first-layer array z (1000000 × 128; its narrower float format is the identity here) and, whole, five
  vectors of 128 entries — the mean, the inverse standard deviation, the scale, the shift and the second
  layer's column — and the one-entry bias, and it stores at row r of the output's block

      logistic ((Σ_j max ((z r j − mean j) · istd j · scale j + shift j, +0.0) · w2 j) + b2).

  Row r of block t is edge 20000·t + r, and the 50 blocks tile the 1000000 edges (edge e lies in block
  e / 20000). So after the region the output array holds, at every edge e, the logistic of `Cert.Spec.score`
  of that edge over the arrays the region was entered with.

  The steps: the body's layout operations read at an index (`rowBcast`, `cellBcast`, `colCast`, `rowSum`);
  the stored value at a row (`pay_apply`, `score_at`); each window's block as a part of its array
  (`zblk_apply`, `blk1_apply` … `blk6_apply`, from the block indices `idx_facts`); what a point writes back
  (`flushed_eq`); the blocks cover the array (`mem_blk`, `cover`); the array after the region (`final_eq`,
  `final`).
-/
import proofs.«155015_j11098195493028_2_alg».proof.Proof.Spec
import proofs.«155015_j11098195493028_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen
open Idealize.ShloMosaic Idealize.ShloMosaic.TcCoe Idealize.SL.Sem
open Idealize.ShloMosaic.Pipeline (Dat)
open Idealize.ShloMosaic.ValueIdx

/-- A vector of 128 entries viewed as one row and repeated over 20000 rows reads, at row r and column j, entry j. -/
theorem rowBcast (v : FVec Ideal S128 .f32) (r : Fin 20000) (j : Fin 128) :
    broadcastTo S20000x128 (shapeCast S1x128 v shapeCasts_S128_S1x128) broadcasts_S1x128_S20000x128 (ix2 r j) = v (ix1 j) :=
  (broadcastTo_1b_ab_apply _ _ r j).trans (shapeCast_a_1a_apply _ _ 0 j)

/-- A one-by-one array repeated down a column of 20000 rows reads its single entry. -/
theorem cellBcast (v : FVec Ideal S1x1 .f32) (r : Fin 20000) :
    broadcastTo S20000x1 v broadcasts_S1x1_S20000x1 (ix2 r (0 : Fin 1)) = v (ix2 (0 : Fin 1) (0 : Fin 1)) :=
  broadcastTo_1b_ab_apply _ _ r 0

/-- A vector of 20000 entries viewed as a column reads, at row r, entry r. -/
theorem colCast (v : FVec Ideal S20000 .f32) (r : Fin 20000) :
    shapeCast S20000x1 v shapeCasts_S20000_S20000x1 (ix2 r (0 : Fin 1)) = v (ix1 r) :=
  shapeCast_apply v _ _ _ (by
    rw [Shape.rowMajor_val_two, Shape.rowMajor_val_one]
    show r.val = r.val * 1 + 0
    omega)

/-- The sum along the 128 columns, read at row r. -/
theorem rowSum (src : FVec Ideal S20000x128 .f32) (hφ : FKind.Formats .f32)
    (hacc : (0x00000000#32 : BitVec 32) = 0x00000000#32) (r : Fin 20000) :
    multiReduction .add [1] S20000 src 0x00000000#32 reduces_S20000x128_S20000 hφ hacc (ix1 r)
      = ∑ j : Fin 128, src (ix2 r j) := by
  refine (Ideal.multiReduction_add_single src 0x00000000#32 reduces_S20000x128_S20000 hφ hacc (ix1 r)).trans ?_
  refine Finset.sum_congr rfl fun j _ => congrArg src ?_
  funext a
  match a with
  | ⟨0, _⟩ => rfl
  | ⟨1, _⟩ => rfl

/-- The logistic of a vector, read at an index. -/
theorem logistic_apply {s : Shape} {φ : FTy} (a : FVec Ideal s φ) (i : s.Idx) :
    logistic a i = Ideal.logistic (a i) := rfl

/-- The value the body stores at row r of its block: the logistic of the row's score, over the loaded block
    and the six loaded small arrays. -/
theorem pay_apply (x0 : Vec Ideal S20000x128 .bf16) (x1 x2 x3 x4 x5 : Vec Ideal S128 .f32) (x6 : Vec Ideal S1x1 .f32)
    (r : Fin 20000) :
    k1_pay1 x0 x1 x2 x3 x4 x5 x6 (ix2 r (0 : Fin 1))
      = Ideal.logistic ((∑ j : Fin 128,
          max ((x0 (ix2 r j) - x1 (ix1 j)) * x2 (ix1 j) * x3 (ix1 j) + x4 (ix1 j)) Cert.Spec.zeroLit * x5 (ix1 j))
          + x6 (ix2 (0 : Fin 1) (0 : Fin 1))) := by
  unfold k1_pay1
  simp only [shapeCast_self]
  refine (logistic_apply _ _).trans (congrArg Ideal.logistic ?_)
  refine (addf_apply _ _ _).trans ?_
  refine congrArg₂ (· + ·) ?_ (cellBcast x6 r)
  refine (colCast _ r).trans ?_
  refine (rowSum _ _ _ r).trans ?_
  refine Finset.sum_congr rfl fun j _ => ?_
  simp only [mulf_apply, maximumf_apply, addf_apply, subf_apply, extf_apply, broadcast_apply, rowBcast]
  rfl

/-- The row of an index of a 20000-row column block, as a number below 20000. -/
abbrev rowOf (y : S20000x1.Idx) : Fin 20000 := ⟨(y 0).val, idx2_lt0 y⟩

/-- The stored value at any index of the block, against arrays given by coordinates: when the loaded block's
    row is row e of z and the loaded small arrays are mu, sd, g, b, w2 and b2, the body stores the logistic of
    the score of edge e. -/
theorem score_at (x0 : Vec Ideal S20000x128 .bf16) (x1 x2 x3 x4 x5 : Vec Ideal S128 .f32) (x6 : Vec Ideal S1x1 .f32)
    (z : Fin 1000000 → Fin 128 → EReal) (mu sd g b w2 : Fin 128 → EReal) (b2 : EReal)
    (y : S20000x1.Idx) (e : Fin 1000000)
    (h0 : ∀ j : Fin 128, x0 (ix2 (rowOf y) j) = z e j) (h1 : ∀ j : Fin 128, x1 (ix1 j) = mu j)
    (h2 : ∀ j : Fin 128, x2 (ix1 j) = sd j) (h3 : ∀ j : Fin 128, x3 (ix1 j) = g j)
    (h4 : ∀ j : Fin 128, x4 (ix1 j) = b j) (h5 : ∀ j : Fin 128, x5 (ix1 j) = w2 j)
    (h6 : x6 (ix2 (0 : Fin 1) (0 : Fin 1)) = b2) :
    k1_pay1 x0 x1 x2 x3 x4 x5 x6 y = Ideal.logistic (Cert.Spec.score z mu sd g b w2 b2 e) := by
  obtain ⟨r, q, rfl⟩ : ∃ (r : Fin 20000) (q : Fin 1), y = ix2 r q := ⟨y 0, y 1, eq_ix2 y⟩
  obtain rfl : q = 0 := Subsingleton.elim _ _
  have h0' : ∀ j : Fin 128, x0 (ix2 r j) = z e j := h0
  rw [pay_apply]
  unfold Cert.Spec.score
  simp only [h0', h1, h2, h3, h4, h5, h6]

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block indices over the grid: at point t the z window and the output window sit at block (t, 0), every
    small window at block 0. -/
theorem idx_facts : ∀ t : Fin cfg1.N,
    win1_0.index t (0 : Fin 2) = t.val ∧ win1_0.index t (1 : Fin 2) = 0
    ∧ win1_1.index t (0 : Fin 1) = 0 ∧ win1_2.index t (0 : Fin 1) = 0 ∧ win1_3.index t (0 : Fin 1) = 0
    ∧ win1_4.index t (0 : Fin 1) = 0 ∧ win1_5.index t (0 : Fin 1) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row r of the z block at point t is row 20000·t + r of the z array. -/
theorem zblk_apply (c : Dev nD) (t : Fin cfg1.N) (r : Fin 20000) (j : Fin 128) (e : Fin 1000000)
    (he : e.val = t.val * 20000 + r.val) :
    (iblk1 V c 0 t : Vec Ideal S20000x128 .bf16) (ix2 r j) = V c main_v20_0 (ix2 e j) := by
  obtain ⟨h0, h1, -⟩ := idx_facts t
  unfold iblk1
  rw [View.read_apply]
  show V c main_v20_0 _ = V c main_v20_0 _
  refine congrArg (V c main_v20_0) ?_
  funext a; apply Fin.ext
  match a with
  | ⟨0, _⟩ => show win1_0.index t (0 : Fin 2) * 20000 + 1 * r.val = e.val; omega
  | ⟨1, _⟩ => show win1_0.index t (1 : Fin 2) * 128 + 1 * j.val = j.val; omega

/-- The mean window's block is the whole mean array. -/
theorem blk1_apply (c : Dev nD) (t : Fin cfg1.N) (j : Fin 128) :
    (iblk1 V c 1 t : Vec Ideal S128 .f32) (ix1 j) = V c main_v22 (ix1 j) := by
  obtain ⟨-, -, h, -⟩ := idx_facts t
  unfold iblk1
  rw [View.read_apply]
  show V c main_v22 _ = V c main_v22 _
  refine congrArg (V c main_v22) ?_
  funext a; apply Fin.ext
  match a with
  | ⟨0, _⟩ => show win1_1.index t (0 : Fin 1) * 128 + 1 * j.val = j.val; omega

/-- The inverse-deviation window's block is the whole array. -/
theorem blk2_apply (c : Dev nD) (t : Fin cfg1.N) (j : Fin 128) :
    (iblk1 V c 2 t : Vec Ideal S128 .f32) (ix1 j) = V c main_v29 (ix1 j) := by
  obtain ⟨-, -, -, h, -⟩ := idx_facts t
  unfold iblk1
  rw [View.read_apply]
  show V c main_v29 _ = V c main_v29 _
  refine congrArg (V c main_v29) ?_
  funext a; apply Fin.ext
  match a with
  | ⟨0, _⟩ => show win1_2.index t (0 : Fin 1) * 128 + 1 * j.val = j.val; omega

/-- The scale window's block is the whole array. -/
theorem blk3_apply (c : Dev nD) (t : Fin cfg1.N) (j : Fin 128) :
    (iblk1 V c 3 t : Vec Ideal S128 .f32) (ix1 j) = V c main_arg4 (ix1 j) := by
  obtain ⟨-, -, -, -, h, -⟩ := idx_facts t
  unfold iblk1
  rw [View.read_apply]
  show V c main_arg4 _ = V c main_arg4 _
  refine congrArg (V c main_arg4) ?_
  funext a; apply Fin.ext
  match a with
  | ⟨0, _⟩ => show win1_3.index t (0 : Fin 1) * 128 + 1 * j.val = j.val; omega

/-- The shift window's block is the whole array. -/
theorem blk4_apply (c : Dev nD) (t : Fin cfg1.N) (j : Fin 128) :
    (iblk1 V c 4 t : Vec Ideal S128 .f32) (ix1 j) = V c main_arg5 (ix1 j) := by
  obtain ⟨-, -, -, -, -, h, -⟩ := idx_facts t
  unfold iblk1
  rw [View.read_apply]
  show V c main_arg5 _ = V c main_arg5 _
  refine congrArg (V c main_arg5) ?_
  funext a; apply Fin.ext
  match a with
  | ⟨0, _⟩ => show win1_4.index t (0 : Fin 1) * 128 + 1 * j.val = j.val; omega

/-- The second layer's column window's block is the whole array. -/
theorem blk5_apply (c : Dev nD) (t : Fin cfg1.N) (j : Fin 128) :
    (iblk1 V c 5 t : Vec Ideal S128 .f32) (ix1 j) = V c main_v30 (ix1 j) := by
  obtain ⟨-, -, -, -, -, -, h, -⟩ := idx_facts t
  unfold iblk1
  rw [View.read_apply]
  show V c main_v30 _ = V c main_v30 _
  refine congrArg (V c main_v30) ?_
  funext a; apply Fin.ext
  match a with
  | ⟨0, _⟩ => show win1_5.index t (0 : Fin 1) * 128 + 1 * j.val = j.val; omega

/-- The second layer's bias window's block is the whole one-by-one array. -/
theorem blk6_apply (c : Dev nD) (t : Fin cfg1.N) :
    (iblk1 V c 6 t : Vec Ideal S1x1 .f32) (ix2 (0 : Fin 1) (0 : Fin 1)) = V c main_v31 (ix2 (0 : Fin 1) (0 : Fin 1)) := by
  obtain ⟨-, -, -, -, -, -, -, h0, h1, -⟩ := idx_facts t
  unfold iblk1
  rw [View.read_apply]
  show V c main_v31 _ = V c main_v31 _
  refine congrArg (V c main_v31) ?_
  funext a; apply Fin.ext
  match a with
  | ⟨0, _⟩ => show win1_6.index t (0 : Fin 2) * 1 + 1 * 0 = 0; omega
  | ⟨1, _⟩ => show win1_6.index t (1 : Fin 2) * 1 + 1 * 0 = 0; omega

/-- What the output array holds after the region, as one function of the arrays the region finds: at edge e
    the logistic of the score of edge e. -/
def G (c : Dev nD) : S1000000x1.Idx → EReal := fun i =>
  Ideal.logistic (Cert.Spec.score (fun e j => V c main_v20_0 (ix2 e j)) (fun j => V c main_v22 (ix1 j))
    (fun j => V c main_v29 (ix1 j)) (fun j => V c main_arg4 (ix1 j)) (fun j => V c main_arg5 (ix1 j))
    (fun j => V c main_v30 (ix1 j)) (V c main_v31 (ix2 (0 : Fin 1) (0 : Fin 1))) ⟨(i 0).val, idx2_lt0 i⟩)

/-- What point t writes back is block t of G: row r of the block is edge 20000·t + r. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz2]
  simp only [View.ld_unit_zero (S := S20000x128) hz2, View.ld_unit_zero (S := S128) hz1,
    View.ld_unit_zero (S := S1x1) hz2]
  funext y
  rw [View.read_apply]
  unfold G
  obtain ⟨-, -, -, -, -, -, -, -, -, h70, -⟩ := idx_facts t
  refine score_at (iblk1 V c 0 t) (iblk1 V c 1 t) (iblk1 V c 2 t) (iblk1 V c 3 t) (iblk1 V c 4 t) (iblk1 V c 5 t)
    (iblk1 V c 6 t) (fun e j => V c main_v20_0 (ix2 e j)) (fun j => V c main_v22 (ix1 j))
    (fun j => V c main_v29 (ix1 j)) (fun j => V c main_arg4 (ix1 j)) (fun j => V c main_arg5 (ix1 j))
    (fun j => V c main_v30 (ix1 j)) (V c main_v31 (ix2 (0 : Fin 1) (0 : Fin 1)))
    ((cfg1.win 7).xinj (grid1.coords t) y) _
    (fun j => zblk_apply V c t _ j _ ?_) (fun j => blk1_apply V c t j) (fun j => blk2_apply V c t j)
    (fun j => blk3_apply V c t j) (fun j => blk4_apply V c t j) (fun j => blk5_apply V c t j) (blk6_apply V c t)
  show win1_7.index t (0 : Fin 2) * 20000 + 1 * (y 0).val = t.val * 20000 + (y 0).val
  omega

/-- An index of the output array is in point t's block iff each coordinate is in the block's range. -/
theorem mem_blk (t : Fin cfg1.N) (i : S1000000x1.Idx) :
    i ∈ ((cfg1.win 7).blk t).view.set ↔ ∀ a : Fin 2, win1_7.index t a * S20000x1.size a ≤ (i a).val
      ∧ (i a).val < win1_7.index t a * S20000x1.size a + S20000x1.size a := by
  show i ∈ ((View.whole main_v32).slice (win1_7.rect t)).set ↔ _
  rw [View.set_slice_whole, Rect.mem_set_unit]
  exact Iff.rfl

/-- Every edge is in some point's block: edge e in the block of point e / 20000. -/
theorem cover (i : S1000000x1.Idx) :
    ∃ t : Fin cfg1.N, (cfg1.win 7).flush t = true ∧ i ∈ ((cfg1.win 7).blk t).view.set := by
  have hi0 : (i 0).val < 1000000 := idx2_lt0 i
  have hi1 : (i 1).val < 1 := idx2_lt1 i
  have hq : (i 0).val / 20000 < 50 := by omega
  obtain ⟨t, ht⟩ : ∃ t : Fin cfg1.N, t.val = (i 0).val / 20000 :=
    ⟨⟨(i 0).val / 20000, lt_of_lt_of_eq hq N_1.symm⟩, rfl⟩
  obtain ⟨-, -, -, -, -, -, -, -, -, h70, h71⟩ := idx_facts t
  refine ⟨t, flush1_7 t, ?_⟩
  rw [mem_blk]
  intro a
  match a with
  | ⟨0, _⟩ =>
    show win1_7.index t (0 : Fin 2) * 20000 ≤ (i 0).val ∧ (i 0).val < win1_7.index t (0 : Fin 2) * 20000 + 20000
    omega
  | ⟨1, _⟩ =>
    show win1_7.index t (1 : Fin 2) * 1 ≤ (i 1).val ∧ (i 1).val < win1_7.index t (1 : Fin 2) * 1 + 1
    omega

/-- The output array after the region is G. -/
theorem final_eq (c : Dev nD) : (dat1 V c).arrAt 7 cfg1.N = G V c :=
  (dat1 V c).arrAt_eq_of_cover 7 (G V c) (fun t _ => flushed_eq V c t) cover

/-- The output array after the region, at edge e: the logistic of the score of edge e over the arrays the
    region finds. -/
theorem final (c : Dev nD) (e : Fin 1000000) :
    (dat1 V c).arrAt 7 cfg1.N (ix2 e (0 : Fin 1))
      = Ideal.logistic (Cert.Spec.score (fun e j => V c main_v20_0 (ix2 e j)) (fun j => V c main_v22 (ix1 j))
          (fun j => V c main_v29 (ix1 j)) (fun j => V c main_arg4 (ix1 j)) (fun j => V c main_arg5 (ix1 j))
          (fun j => V c main_v30 (ix1 j)) (V c main_v31 (ix2 (0 : Fin 1) (0 : Fin 1))) e) := by
  rw [final_eq]
  rfl

end Cert.KernelIdeal.Region1

end
-- ==== Proof.KHost.lean ====
/-
  The kernel program's host side, read at the extended reals.

  @main is five segments: host operations, the first pallas region, host operations, the second region, one last host
  operation. The generated fold of buffer contents through them names the contents at each boundary; this file reads,
  buffer by buffer, what the second region finds when it is entered and what the program returns:

  * between the regions: the batch mean `S / n` and the inverse standard deviation `rsqrt (Q / n − mean² + ε)` of
    each column, from the column sums `S` and the column sums of squares `Q` the first region leaves; the second layer's
    column and bias re-laid ([128,1] as [128], [1] as [1,1]); the rescaling arrays untouched;
  * after the second region: its [1000000,1] result re-laid as [1000000].

  The regions' own arrays stay opaque names here (`(dat0 …).arrAt w N`, `(dat1 …).arrAt w N`).
-/
import proofs.«155015_j11098195493028_2_alg».proof.Proof.Gen.KernelIdeal.Frame
import proofs.«155015_j11098195493028_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HostVal

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- A buffer that no operation of a host stretch writes holds after the stretch what it held before: the goal
    `after ops V b = V b`, each operation's one written buffer told apart from `b` as a reference. -/
local macro "not_written" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ## Between the regions

The first region's three result arrays are windows 5, 6, 7 of its pipeline: the stored layer output, the column sums,
the column sums of squares. -/

/-- The second region finds the first region's stored layer output. -/
theorem V3_v20_0 : V3 m ρ c main_v20_0 = (dat0 (V1 m ρ) c).arrAt 5 cfg0.N := by
  refine Eq.trans ?_ (W2_arr m ρ c 5)
  show StableHlo.after hostOps1 (W2 m ρ c) (Proc.devRef .tc main_v20_0) = W2 m ρ c (Proc.devRef .tc main_v20_0)
  not_written hostOps1

/-- The batch mean of column `j`: the column sum over the number of edges. -/
theorem V3_v22 (j : Fin 128) :
    V3 m ρ c main_v22 (ix1 j) = Ideal.div ((dat0 (V1 m ρ) c).arrAt 6 cfg0.N (ix1 j)) Cert.Spec.nE := by
  have h : (V3 m ρ c main_v22 : S128.Idx → EReal)
      = Host.divf (F := Ideal) (W2 m ρ c (Proc.devRef .tc main_v20_1) : S128.Idx → EReal)
          (broadcastInDim S128 ![] bcast_S_S128 (constant (F := Ideal) S_ .f32 0x49742400#32)) := by
    dsimp only [V3, W3, hostOps1]; after_results; try rfl
  rw [h, show W2 m ρ c (Proc.devRef .tc main_v20_1) = (dat0 (V1 m ρ) c).arrAt 6 cfg0.N from W2_arr m ρ c 6]
  generalize (dat0 (V1 m ρ) c).arrAt 6 cfg0.N = S
  rfl

/-- The inverse standard deviation of column `j`: `rsqrt` of the mean of squares minus the squared mean, plus `ε`. -/
theorem V3_v29 (j : Fin 128) :
    V3 m ρ c main_v29 (ix1 j)
      = Cert.Spec.istd (Ideal.div ((dat0 (V1 m ρ) c).arrAt 7 cfg0.N (ix1 j)) Cert.Spec.nE
          - Ideal.div ((dat0 (V1 m ρ) c).arrAt 6 cfg0.N (ix1 j)) Cert.Spec.nE
            * Ideal.div ((dat0 (V1 m ρ) c).arrAt 6 cfg0.N (ix1 j)) Cert.Spec.nE) := by
  have h : (V3 m ρ c main_v29 : S128.Idx → EReal)
      = Host.rsqrt (F := Ideal) (addf
          (subf
            (Host.divf (F := Ideal) (W2 m ρ c (Proc.devRef .tc main_v20_2) : S128.Idx → EReal)
              (broadcastInDim S128 ![] bcast_S_S128 (constant (F := Ideal) S_ .f32 0x49742400#32)))
            (mulf
              (Host.divf (F := Ideal) (W2 m ρ c (Proc.devRef .tc main_v20_1) : S128.Idx → EReal)
                (broadcastInDim S128 ![] bcast_S_S128 (constant (F := Ideal) S_ .f32 0x49742400#32)))
              (Host.divf (F := Ideal) (W2 m ρ c (Proc.devRef .tc main_v20_1) : S128.Idx → EReal)
                (broadcastInDim S128 ![] bcast_S_S128 (constant (F := Ideal) S_ .f32 0x49742400#32)))))
          (broadcastInDim S128 ![] bcast_S_S128 (constant (F := Ideal) S_ .f32 0x3727C5AC#32))) := by
    dsimp only [V3, W3, hostOps1]; after_results; try rfl
  rw [h, show W2 m ρ c (Proc.devRef .tc main_v20_1) = (dat0 (V1 m ρ) c).arrAt 6 cfg0.N from W2_arr m ρ c 6,
    show W2 m ρ c (Proc.devRef .tc main_v20_2) = (dat0 (V1 m ρ) c).arrAt 7 cfg0.N from W2_arr m ρ c 7]
  generalize (dat0 (V1 m ρ) c).arrAt 6 cfg0.N = S
  generalize (dat0 (V1 m ρ) c).arrAt 7 cfg0.N = Q
  rfl

/-- An argument array that neither the first stretch of host operations nor the first region writes is, at the first
    region's exit, as launched. -/
theorem W2_arg4 : W2 m ρ c (Proc.devRef .tc main_arg4) = m ((c.tc : Thread nD τ).loc main_arg4) := by
  refine (W2_of_ne m ρ c main_arg4 (by decide)).trans ?_
  show StableHlo.after hostOps0 (W0 m ρ c) (Proc.devRef .tc main_arg4) = W0 m ρ c (Proc.devRef .tc main_arg4)
  not_written hostOps0
theorem W2_arg5 : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = W0 m ρ c (Proc.devRef .tc main_arg5)
  not_written hostOps0
theorem W2_arg6 : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = W0 m ρ c (Proc.devRef .tc main_arg6)
  not_written hostOps0
theorem W2_arg7 : W2 m ρ c (Proc.devRef .tc main_arg7) = m ((c.tc : Thread nD τ).loc main_arg7) := by
  refine (W2_of_ne m ρ c main_arg7 (by decide)).trans ?_
  show StableHlo.after hostOps0 (W0 m ρ c) (Proc.devRef .tc main_arg7) = W0 m ρ c (Proc.devRef .tc main_arg7)
  not_written hostOps0

/-- The second layer's column [128,1] re-laid as [128]: entry `j` is entry `(j, 0)`. -/
theorem V3_v30 (j : Fin 128) : V3 m ρ c main_v30 (ix1 j) = m ((c.tc : Thread nD τ).loc main_arg6) (ix2 j 0) := by
  have h : (V3 m ρ c main_v30 : S128.Idx → EReal)
      = shapeCast S128 (W2 m ρ c (Proc.devRef .tc main_arg6) : S128x1.Idx → EReal) shapeCasts_S128x1_S128 := by
    dsimp only [V3, W3, hostOps1]; after_results; try rfl
  rw [h, W2_arg6 m ρ c]
  refine shapeCast_apply _ shapeCasts_S128x1_S128 (ix1 j) (ix2 j 0) ?_
  rw [Shape.rowMajor_val_two, Shape.rowMajor_val_one]
  show j.val * 1 + 0 = j.val
  omega

/-- The second layer's bias [1] re-laid as [1,1]. -/
theorem V3_v31 : V3 m ρ c main_v31 (ix2 0 0) = m ((c.tc : Thread nD τ).loc main_arg7) (ix1 0) := by
  have h : (V3 m ρ c main_v31 : S1x1.Idx → EReal)
      = shapeCast S1x1 (W2 m ρ c (Proc.devRef .tc main_arg7) : S1.Idx → EReal) shapeCasts_S1_S1x1 := by
    dsimp only [V3, W3, hostOps1]; after_results; try rfl
  rw [h, W2_arg7 m ρ c]
  refine shapeCast_apply _ shapeCasts_S1_S1x1 (ix2 0 0) (ix1 0) ?_
  rw [Shape.rowMajor_val_two, Shape.rowMajor_val_one]
  rfl

/-- The normalisation's scale array is as launched. -/
theorem V3_arg4 : V3 m ρ c main_arg4 = m ((c.tc : Thread nD τ).loc main_arg4) := by
  refine Eq.trans ?_ (W2_arg4 m ρ c)
  show StableHlo.after hostOps1 (W2 m ρ c) (Proc.devRef .tc main_arg4) = W2 m ρ c (Proc.devRef .tc main_arg4)
  not_written hostOps1

/-- The normalisation's shift array is as launched. -/
theorem V3_arg5 : V3 m ρ c main_arg5 = m ((c.tc : Thread nD τ).loc main_arg5) := by
  refine Eq.trans ?_ (W2_arg5 m ρ c)
  show StableHlo.after hostOps1 (W2 m ρ c) (Proc.devRef .tc main_arg5) = W2 m ρ c (Proc.devRef .tc main_arg5)
  not_written hostOps1

/-! ## After the second region -/

/-- The program's result: the second region's [1000000,1] result array (window 7 of its pipeline) re-laid as
    [1000000]; entry `e` is entry `(e, 0)`. -/
theorem W5_v33 (e : Fin 1000000) :
    W5 m ρ c (Proc.devRef .tc main_v33) (ix1 e) = (dat1 (V3 m ρ) c).arrAt 7 cfg1.N (ix2 e 0) := by
  have h : (W5 m ρ c (Proc.devRef .tc main_v33) : S1000000.Idx → EReal)
      = shapeCast S1000000 (W4 m ρ c (Proc.devRef .tc main_v32) : S1000000x1.Idx → EReal) shapeCasts_S1000000x1_S1000000 := by
    dsimp only [W5, hostOps2]; after_results; try rfl
  rw [h]
  refine (shapeCast_apply _ shapeCasts_S1000000x1_S1000000 (ix1 e) (ix2 e 0) ?_).trans ?_
  · rw [Shape.rowMajor_val_two, Shape.rowMajor_val_one]
    show e.val * 1 + 0 = e.val
    omega
  · exact congrFun (W4_arr m ρ c 7) (ix2 e 0)

end Cert.KernelIdeal.HostVal

end
-- ==== Proof.KHost0.lean ====
/-
  The kernel program's host side before the first pallas region, read at the extended reals.

  The host operations in front of the first region cast the two embedding tables to the narrower format (the identity
  on extended reals), compute the gathers' start indices (a negative index moved up by the table's height), gather the
  user rows and the food rows, and cut the first layer's weight matrix in its two halves (rows 0–127, rows 128–255),
  each cast to the narrower format. The generated fold of buffer contents through these operations names what the first
  region finds when it is entered; this file reads it buffer by buffer:

  * the gathered user rows and the gathered food rows are, index for index, the reference's two gathers: the same
    dimension numbers, the same start-index arithmetic, applied to the same table and the same index array;
  * the two weight halves are the rows `k` and `128 + k` of the launched weight matrix;
  * the first layer's bias is as launched (no operation writes it).

  The gather identities are stated over variables, so no full-size array is ever evaluated.
-/
import proofs.«155015_j11098195493028_2_alg».proof.Proof.Gen.KernelIdeal.Frame
import proofs.«155015_j11098195493028_2_alg».proof.Proof.Gen.ReferenceIdeal.Read
import Idealize.ShloMosaic.Lib.Pipeline.Value
import Idealize.ShloMosaic.Lib.ValueIdx

set_option maxRecDepth 16384

noncomputable section

namespace Cert.KernelIdeal.HostVal

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg) (c : Dev nD)

/-- A buffer that no operation of a host stretch writes holds after the stretch what it held before: the goal
    `after ops V b = V b`, each operation's one written buffer told apart from `b` as a reference. -/
local macro "not_written" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ## Before the first region -/

/-- The two programs' gathers of user rows are one function of the table and the index array: the same start indices
    (a negative index moved up by the table's height, 100000), the same dimension numbers; casting the table to the
    narrower format first changes nothing on extended reals. Stated over variables, so that no full-size array is
    ever evaluated. -/
theorem gather_users_eq (x0 : (⟨S100000x128, .f32⟩ : BufTy).Contents (Elt Ideal)) (x8 : (⟨S1000000, .i32⟩ : BufTy).Contents (Elt Ideal)) :
    (Host.gather gather_S100000x128_S1000000x1_S1000000x128_1_0_n_n_0_1_1128
        (truncf (F := Ideal) .bf16 x0 bitsLt_bf16_f32 : (⟨S100000x128, .bf16⟩ : BufTy).Contents (Elt Ideal))
        (broadcastInDim S1000000x1 ![0] bcast_S1000000_S1000000x1_0
          (select (cmpi .slt x8 (broadcastInDim S1000000 ![] bcast_S_S1000000 (constantI S_ 32 0#32)))
            (addi x8 (broadcastInDim S1000000 ![] bcast_S_S1000000 (constantI S_ 32 100000#32))) x8)) : S1000000x128.Idx → EReal)
      = Cert.ReferenceIdeal.Read.val_main_v6 (F := Ideal) x0 x8 := by
  unfold Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
  rfl

/-- The same for the food rows (table height 50000). -/
theorem gather_foods_eq (x1 : (⟨S50000x128, .f32⟩ : BufTy).Contents (Elt Ideal)) (x9 : (⟨S1000000, .i32⟩ : BufTy).Contents (Elt Ideal)) :
    (Host.gather gather_S50000x128_S1000000x1_S1000000x128_1_0_n_n_0_1_1128
        (truncf (F := Ideal) .bf16 x1 bitsLt_bf16_f32 : (⟨S50000x128, .bf16⟩ : BufTy).Contents (Elt Ideal))
        (broadcastInDim S1000000x1 ![0] bcast_S1000000_S1000000x1_0
          (select (cmpi .slt x9 (broadcastInDim S1000000 ![] bcast_S_S1000000 (constantI S_ 32 0#32)))
            (addi x9 (broadcastInDim S1000000 ![] bcast_S_S1000000 (constantI S_ 32 50000#32))) x9)) : S1000000x128.Idx → EReal)
      = Cert.ReferenceIdeal.Read.val_main_v13 (F := Ideal) x1 x9 := by
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_c_1 Cert.ReferenceIdeal.Read.val_main_c_2
  rfl

/-- The first region finds the gathered user rows, as the reference gathers them. -/
theorem V1_v8 : (V1 m ρ c main_v8 : S1000000x128.Idx → EReal)
    = Cert.ReferenceIdeal.Read.val_main_v6 (F := Ideal) (m ((c.tc : Thread nD τ).loc main_arg0)) (m ((c.tc : Thread nD τ).loc main_arg8)) := by
  refine Eq.trans ?_ (gather_users_eq (m ((c.tc : Thread nD τ).loc main_arg0)) (m ((c.tc : Thread nD τ).loc main_arg8)))
  dsimp only [V1, W1, hostOps0]
  after_results_simp <;> rfl

/-- The first region finds the gathered food rows, as the reference gathers them. -/
theorem V1_v15 : (V1 m ρ c main_v15 : S1000000x128.Idx → EReal)
    = Cert.ReferenceIdeal.Read.val_main_v13 (F := Ideal) (m ((c.tc : Thread nD τ).loc main_arg1)) (m ((c.tc : Thread nD τ).loc main_arg9)) := by
  refine Eq.trans ?_ (gather_foods_eq (m ((c.tc : Thread nD τ).loc main_arg1)) (m ((c.tc : Thread nD τ).loc main_arg9)))
  dsimp only [V1, W1, hostOps0]
  after_results_simp <;> rfl

/-- The upper half of the first layer's weight matrix: rows 0–127 (the slice at offset (0, 0); the cast is the identity). -/
theorem V1_v17 (k j : Fin 128) :
    V1 m ρ c main_v17 (ix2 k j) = m ((c.tc : Thread nD τ).loc main_arg2) (ix2 (Fin.castAdd 128 k) j) := by
  have h : (V1 m ρ c main_v17 : S128x128.Idx → EReal)
      = truncf (F := Ideal) .bf16 (extractStridedSlice S128x128 ![0, 0]
          (m ((c.tc : Thread nD τ).loc main_arg2) : S256x128.Idx → EReal) slices_S256x128_S128x128_0_0) bitsLt_bf16_f32 := by
    dsimp only [V1, W1, hostOps0]; after_results; try rfl
  rw [h]
  refine (extractStridedSlice_apply _ _ slices_S256x128_S128x128_0_0 (ix2 k j) (ix2 (Fin.castAdd 128 k) j) fun a => ?_)
  match a with
  | ⟨0, _⟩ => show k.val = 0 + k.val; omega
  | ⟨1, _⟩ => show j.val = 0 + j.val; omega

/-- The lower half: rows 128–255 (the slice at offset (128, 0)). -/
theorem V1_v19 (k j : Fin 128) :
    V1 m ρ c main_v19 (ix2 k j) = m ((c.tc : Thread nD τ).loc main_arg2) (ix2 (Fin.natAdd 128 k) j) := by
  have h : (V1 m ρ c main_v19 : S128x128.Idx → EReal)
      = truncf (F := Ideal) .bf16 (extractStridedSlice S128x128 ![128, 0]
          (m ((c.tc : Thread nD τ).loc main_arg2) : S256x128.Idx → EReal) slices_S256x128_S128x128_128_0) bitsLt_bf16_f32 := by
    dsimp only [V1, W1, hostOps0]; after_results; try rfl
  rw [h]
  refine (extractStridedSlice_apply _ _ slices_S256x128_S128x128_128_0 (ix2 k j) (ix2 (Fin.natAdd 128 k) j) fun a => ?_)
  match a with
  | ⟨0, _⟩ => show 128 + k.val = 128 + k.val; rfl
  | ⟨1, _⟩ => show j.val = 0 + j.val; omega

/-- The first layer's bias is as launched. -/
theorem V1_arg3 : V1 m ρ c main_arg3 = m ((c.tc : Thread nD τ).loc main_arg3) := by
  show StableHlo.after hostOps0 (W0 m ρ c) (Proc.devRef .tc main_arg3) = W0 m ρ c (Proc.devRef .tc main_arg3)
  not_written hostOps0

end Cert.KernelIdeal.HostVal

end
-- ==== Proof.SpecLaws.lean ====
/-
  Laws of the shared vocabulary of Proof/Spec.lean.

  * the three literals as extended reals (`nE = 1000000`, `1.0 = 1`, `+0.0 = 0`);
  * the first linear layer written as one contraction over the concatenated row equals the layer written with the
    weight matrix split in its two halves (a sum over `Fin (128 + 128)` splits in two sums over `Fin 128`);
  * a linear layer of real data is real;
  * THE VARIANCE IDENTITY: for real data `z` over `n` edges, with `μ = (Σ z) / n`,
        Σ (z − μ)² / n  =  (Σ z²) / n − μ²,
    which needs `n` to be the NUMBER of summands (`Σ μ² = n · μ²`). On the extended reals it is stated for entries
    that are real numbers: the casts of the finite sums are pushed inside, the quotient by the nonzero real `n` is the
    product with `1 / n`, and the identity is then one of real numbers, proved over an arbitrary finite index type
    (the index type `Fin 1000000` is never enumerated).
-/
import proofs.«155015_j11098195493028_2_alg».proof.Proof.Spec
import Mathlib.Tactic
import Mathlib.Algebra.BigOperators.Fin

noncomputable section

namespace Cert.Spec

open Idealize.ShloMosaic

/-! ## The literals -/

/-- `1000000.0` denotes the real `1000000`: exponent field 146, so `(2^23 + 0x742400) · 2^(146 − 127 − 23)`. -/
theorem nE_eq : nE = ((1000000 : ℝ) : EReal) := by
  unfold nE
  simp [Ideal.ofBits, Ideal.ieee, -EReal.coe_mul]; norm_num

/-- `1.0` denotes `1`. -/
theorem one_lit : Ideal.ofBits .f32 0x3F800000#32 = (1 : EReal) := by
  simp [Ideal.ofBits, Ideal.ieee, -EReal.coe_mul]; norm_num

/-- `+0.0` denotes `0`. -/
theorem zeroLit_eq : zeroLit = 0 := by
  unfold zeroLit
  simp [Ideal.ofBits, Ideal.ieee]

/-- The logistic function is `1 / (1 + e^(−s))` with the quotient and the exponential of the extended reals. -/
theorem logistic_eq (s : EReal) : Ideal.logistic s = Ideal.div 1 (1 + Ideal.exp (-s)) := rfl

/-! ## Finite sums of reals inside the extended reals -/

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals that are real is real. -/
theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

/-! ## The first linear layer -/

/-- The concatenated row at an index of the first half is the user row. -/
theorem cat_castAdd (xu xf : Fin 1000000 → Fin 128 → EReal) (e : Fin 1000000) (k : Fin 128) :
    cat xu xf e (Fin.castAdd 128 k) = xu e k := by
  have hk : (Fin.castAdd 128 k : Fin (128 + 128)).val < 128 := by simp
  unfold cat
  rw [dif_pos hk]
  rfl

/-- The concatenated row at an index of the second half is the food row. -/
theorem cat_natAdd (xu xf : Fin 1000000 → Fin 128 → EReal) (e : Fin 1000000) (k : Fin 128) :
    cat xu xf e (Fin.natAdd 128 k) = xf e k := by
  have hk : ¬ (Fin.natAdd 128 k : Fin (128 + 128)).val < 128 := by simp
  unfold cat
  rw [dif_neg hk]
  congr 1
  apply Fin.ext
  simp

/-- One contraction over the 256 concatenated entries is the sum of the two contractions over 128 entries with the
    upper and the lower half of the weight matrix. -/
theorem linCat_eq_lin (xu xf : Fin 1000000 → Fin 128 → EReal) (w1 : Fin 256 → Fin 128 → EReal) (b1 : Fin 128 → EReal)
    (e : Fin 1000000) (j : Fin 128) :
    linCat xu xf w1 b1 e j
      = lin xu xf (fun k j => w1 (Fin.castAdd 128 k) j) (fun k j => w1 (Fin.natAdd 128 k) j) b1 e j := by
  unfold linCat lin
  refine congrArg (· + b1 j) ?_
  refine (Fin.sum_univ_add (a := 128) (b := 128) (fun k : Fin (128 + 128) => cat xu xf e k * w1 k j)).trans ?_
  refine congrArg₂ (· + ·) ?_ ?_
  · exact Finset.sum_congr rfl (fun k _ => by rw [cat_castAdd])
  · exact Finset.sum_congr rfl (fun k _ => by rw [cat_natAdd])

/-- The first linear layer of real rows, real weights and real biases is real. -/
theorem lin_real (xu xf : Fin 1000000 → Fin 128 → EReal) (wa wb : Fin 128 → Fin 128 → EReal) (b1 : Fin 128 → EReal)
    (hxu : ∀ e k, ∃ r : ℝ, xu e k = (r : EReal)) (hxf : ∀ e k, ∃ r : ℝ, xf e k = (r : EReal))
    (hwa : ∀ k j, ∃ r : ℝ, wa k j = (r : EReal)) (hwb : ∀ k j, ∃ r : ℝ, wb k j = (r : EReal))
    (hb1 : ∀ j, ∃ r : ℝ, b1 j = (r : EReal)) :
    ∀ e j, ∃ r : ℝ, lin xu xf wa wb b1 e j = (r : EReal) := by
  intro e j
  obtain ⟨a, ha⟩ := real_sum Finset.univ (fun k : Fin 128 => xu e k * wa k j) (fun k => by
    obtain ⟨p, hp⟩ := hxu e k
    obtain ⟨q, hq⟩ := hwa k j
    exact ⟨p * q, by rw [hp, hq, EReal.coe_mul]⟩)
  obtain ⟨b, hb⟩ := real_sum Finset.univ (fun k : Fin 128 => xf e k * wb k j) (fun k => by
    obtain ⟨p, hp⟩ := hxf e k
    obtain ⟨q, hq⟩ := hwb k j
    exact ⟨p * q, by rw [hp, hq, EReal.coe_mul]⟩)
  obtain ⟨c, hc⟩ := hb1 j
  refine ⟨a + b + c, ?_⟩
  unfold lin
  rw [ha, hb, hc, EReal.coe_add, EReal.coe_add]

/-! ## The variance identity -/

/-- Over the reals: the mean of the squared deviations from the mean is the mean of the squares minus the squared
    mean, when the divisor `n` is the number of summands. -/
theorem real_var {ι : Type*} [Fintype ι] (r : ι → ℝ) (n : ℝ) (hn : n = (Fintype.card ι : ℝ)) (hn0 : n ≠ 0) (S μ : ℝ)
    (hS : S = ∑ i, r i) (hμ : μ = S * (1 / n)) :
    (∑ i, r i * r i) * (1 / n) - μ * μ = (∑ i, (r i - μ) * (r i - μ)) * (1 / n) := by
  have h1 : ∑ i, (r i - μ) * (r i - μ) = (∑ i, r i * r i) - 2 * μ * S + n * (μ * μ) := by
    have h2 : ∀ i, (r i - μ) * (r i - μ) = r i * r i - 2 * μ * r i + μ * μ := fun i => by ring
    rw [Finset.sum_congr rfl (fun i _ => h2 i), Finset.sum_add_distrib, Finset.sum_sub_distrib, ← Finset.mul_sum,
      Finset.sum_const, Finset.card_univ, nsmul_eq_mul, ← hn, ← hS]
  rw [h1, hμ]
  field_simp
  ring

/-- The variance identity on the extended reals, for real entries over any finite index type whose number of
    elements is the real divisor `n`. -/
theorem var_identity {ι : Type*} [Fintype ι] (n : ℝ) (hn : n = (Fintype.card ι : ℝ)) (hn0 : n ≠ 0) (z : ι → EReal)
    (hz : ∀ i, ∃ r : ℝ, z i = (r : EReal)) :
    Ideal.div (∑ i, z i * z i) (n : EReal) - Ideal.div (∑ i, z i) (n : EReal) * Ideal.div (∑ i, z i) (n : EReal)
      = Ideal.div (∑ i, (z i - Ideal.div (∑ i, z i) (n : EReal)) * (z i - Ideal.div (∑ i, z i) (n : EReal))) (n : EReal) := by
  choose r hr using hz
  have hz' : z = fun i => (r i : EReal) := funext hr
  subst hz'
  have hμ : Ideal.div (∑ i, (r i : EReal)) (n : EReal) = (((∑ i, r i) * (1 / n) : ℝ) : EReal) := by
    rw [Ideal.div_coe hn0, ← coe_sum, ← EReal.coe_mul]
  have hq : Ideal.div (∑ i, (r i : EReal) * (r i : EReal)) (n : EReal) = (((∑ i, r i * r i) * (1 / n) : ℝ) : EReal) := by
    rw [Ideal.div_coe hn0, EReal.coe_mul, coe_sum]
    exact congrArg (· * ((1 / n : ℝ) : EReal)) (Finset.sum_congr rfl (fun i _ => (EReal.coe_mul _ _).symm))
  rw [hμ, hq]
  have hd : ∑ i, ((r i : EReal) - (((∑ i, r i) * (1 / n) : ℝ) : EReal)) * ((r i : EReal) - (((∑ i, r i) * (1 / n) : ℝ) : EReal))
      = ((∑ i, (r i - (∑ i, r i) * (1 / n)) * (r i - (∑ i, r i) * (1 / n)) : ℝ) : EReal) := by
    rw [coe_sum]
    exact Finset.sum_congr rfl (fun i _ => by rw [← EReal.coe_sub, ← EReal.coe_mul])
  rw [hd, Ideal.div_coe hn0, ← EReal.coe_mul, ← EReal.coe_mul, ← EReal.coe_sub]
  exact congrArg _ (real_var r n hn hn0 _ _ rfl rfl)

/-- The two textbook forms of the biased variance agree on real data. -/
theorem varK_eq_varR (z : Fin 1000000 → Fin 128 → EReal) (hz : ∀ e j, ∃ r : ℝ, z e j = (r : EReal)) (j : Fin 128) :
    varK z j = varR z j := by
  unfold varK varR mean colSum colSumSq
  rw [nE_eq]
  exact var_identity (1000000 : ℝ) (by rw [Fintype.card_fin]; norm_num) (by norm_num) (fun e => z e j) (fun e => hz e j)

/-- Hence the two results agree on real data. -/
theorem outK_eq_outR (z : Fin 1000000 → Fin 128 → EReal) (hz : ∀ e j, ∃ r : ℝ, z e j = (r : EReal))
    (g b w2 : Fin 128 → EReal) (b2 : EReal) (e : Fin 1000000) : outK z g b w2 b2 e = outR z g b w2 b2 e := by
  have h : (fun j => istd (varK z j)) = (fun j => istd (varR z j)) := funext fun j => by rw [varK_eq_varR z hz j]
  unfold outK outR
  rw [h]

end Cert.Spec

end
-- ==== Proof.RefValue.lean ====
/-
  The reference program's result, stage by stage, as the specification's function of the argument arrays.

  The reference gathers a user row and a food row for every edge, joins them into one row of 256 entries,
  contracts it with the 256×128 weight matrix and adds the bias (`Spec.linCat`: the first layer `z`), takes the
  batch mean of every column (`Spec.mean`) and the mean of the squared deviations from it (`Spec.varR`), normalises
  with `Spec.istd`, rescales, rectifies, contracts with the second layer's column, adds its bias (`Spec.score`) and
  ends in `1 / (1 + exp (−s))`, the logistic function. Each lemma below reads ONE named stage of the generated
  stage list at an index built from its coordinates; the last theorem chains them: the result at edge `e` is
  `Spec.outR z … e`. The two gathers are left as they are (every gathered entry is an entry of the gathered table,
  which is all that finiteness needs).
-/
import proofs.«155015_j11098195493028_2_alg».proof.Proof.Spec
import proofs.«155015_j11098195493028_2_alg».proof.Proof.SpecLaws
import proofs.«155015_j11098195493028_2_alg».proof.Proof.Gen.ReferenceIdeal.Read
import Idealize.ShloMosaic.Lib.ValueIdx

noncomputable section

namespace Cert.ReferenceIdeal.RefValue

open Cert.ReferenceIdeal Cert.ReferenceIdeal.Gen Idealize.ShloMosaic Idealize.ShloMosaic.ValueIdx

variable (x0 : (⟨S100000x128, .f32⟩ : BufTy).Contents (Elt Ideal)) (x1 : (⟨S50000x128, .f32⟩ : BufTy).Contents (Elt Ideal))
  (x2 : (⟨S256x128, .f32⟩ : BufTy).Contents (Elt Ideal)) (x3 x4 x5 : (⟨S128, .f32⟩ : BufTy).Contents (Elt Ideal))
  (x6 : (⟨S128x1, .f32⟩ : BufTy).Contents (Elt Ideal)) (x7 : (⟨S1, .f32⟩ : BufTy).Contents (Elt Ideal))
  (x8 x9 : (⟨S1000000, .i32⟩ : BufTy).Contents (Elt Ideal))

/-! ## The gathers: every gathered entry is an entry of the table -/

/-- Every entry of the gathered user rows is an entry of the user table, so it is a real number when the table's are. -/
theorem v6_real (h : ∀ i, ∃ r : ℝ, x0 i = (r : EReal)) :
    ∀ i, ∃ r : ℝ, Read.val_main_v6 (F := Ideal) x0 x8 i = (r : EReal) := by
  intro i
  unfold Read.val_main_v6 Host.gather
  exact h _

/-- Every entry of the gathered food rows is an entry of the food table, so it is a real number when the table's are. -/
theorem v13_real (h : ∀ i, ∃ r : ℝ, x1 i = (r : EReal)) :
    ∀ i, ∃ r : ℝ, Read.val_main_v13 (F := Ideal) x1 x9 i = (r : EReal) := by
  intro i
  unfold Read.val_main_v13 Host.gather
  exact h _

/-! ## The first layer -/

/-- The joined row: entry `k` of edge `e` is the user row's entry `k` below 128 and the food row's entry `k − 128`
    from 128 on. -/
theorem cat_at (e : Fin 1000000) (k : Fin 256) :
    Read.val_main_v14 (F := Ideal) x0 x1 x8 x9 (ix2 e k)
      = Cert.Spec.cat (fun e k => Read.val_main_v6 (F := Ideal) x0 x8 (ix2 e k))
          (fun e k => Read.val_main_v13 (F := Ideal) x1 x9 (ix2 e k)) e k := by
  unfold Read.val_main_v14
  generalize Read.val_main_v6 (F := Ideal) x0 x8 = a
  generalize Read.val_main_v13 (F := Ideal) x1 x9 = b
  unfold Cert.Spec.cat
  by_cases h : k.val < 128
  · rw [dif_pos h]
    exact concatenate_pair_apply_left (1 : Fin S1000000x256.rank) a b _ (ix2 e k) rfl (ix2 e (⟨k.val, h⟩ : Fin 128))
      (fun c => by match c with | ⟨0, _⟩ => rfl | ⟨1, _⟩ => rfl)
  · rw [dif_neg h]
    have hk : k.val < 256 := k.isLt
    exact concatenate_pair_apply_right (1 : Fin S1000000x256.rank) a b _ (ix2 e k) rfl rfl
      (ix2 e (⟨k.val - 128, by omega⟩ : Fin 128))
      (fun c hc => by match c, hc with | ⟨0, _⟩, _ => rfl | ⟨1, _⟩, hc => exact absurd rfl hc)
      (by show k.val - 128 + 128 = k.val; omega)

/-- The first layer at edge `e`, column `j`: the joined row contracted with column `j` of the weight matrix, plus
    the bias. -/
theorem lin_at (e : Fin 1000000) (j : Fin 128) :
    Read.val_main_v18 (F := Ideal) x0 x1 x2 x3 x8 x9 (ix2 e j)
      = Cert.Spec.linCat (fun e k => Read.val_main_v6 (F := Ideal) x0 x8 (ix2 e k))
          (fun e k => Read.val_main_v13 (F := Ideal) x1 x9 (ix2 e k)) (fun k j => x2 (ix2 k j)) (fun j => x3 (ix1 j)) e j := by
  rw [Read.val_main_v18_apply, Read.val_main_v15_apply, Read.val_main_v17_apply, Read.val_main_v16_apply, Ideal.addf_def]
  unfold Cert.Spec.linCat
  refine congrArg₂ (· + ·) (Finset.sum_congr rfl fun k _ => ?_) ?_
  · have hl : Read.lidx_main_v15 (ix2 e j) k = ix2 e k :=
      funext fun a => by match a with | ⟨0, _⟩ => rfl | ⟨1, _⟩ => rfl
    have hr : Read.ridx_main_v15 (ix2 e j) k = ix2 k j :=
      funext fun a => by match a with | ⟨0, _⟩ => rfl | ⟨1, _⟩ => rfl
    rw [hl, hr, cat_at]
  · exact congrArg x3 (funext fun a => by match a with | ⟨0, _⟩ => rfl)

/-- The first layer as the reference's stage list holds it, by coordinates (kept closed below: the later stages are
    functions of it, whatever it is). -/
def zR : Fin 1000000 → Fin 128 → EReal :=
  fun e j => Read.val_main_v18 (F := Ideal) x0 x1 x2 x3 x8 x9 (ix2 e j)

theorem zR_apply (e : Fin 1000000) (j : Fin 128) :
    zR x0 x1 x2 x3 x8 x9 e j = Read.val_main_v18 (F := Ideal) x0 x1 x2 x3 x8 x9 (ix2 e j) := rfl

/-- It is the specification's first layer of the gathered rows. -/
theorem zR_eq :
    zR x0 x1 x2 x3 x8 x9
      = Cert.Spec.linCat (fun e k => Read.val_main_v6 (F := Ideal) x0 x8 (ix2 e k))
          (fun e k => Read.val_main_v13 (F := Ideal) x1 x9 (ix2 e k)) (fun k j => x2 (ix2 k j)) (fun j => x3 (ix1 j)) :=
  funext fun e => funext fun j => lin_at x0 x1 x2 x3 x8 x9 e j

/-! ## The batch statistics -/

/-- The column sums: the sum from the literal zero over all edges. -/
theorem colSum_at (j : Fin 128) :
    Read.val_main_v19 (F := Ideal) x0 x1 x2 x3 x8 x9 (ix1 j) = Cert.Spec.colSum (zR x0 x1 x2 x3 x8 x9) j := by
  rw [Read.val_main_v19_apply, Read.val_main_cst_apply, Ideal.ofBits_def, Ideal.ofBits_zero_f32, zero_add]
  unfold Cert.Spec.colSum
  refine Finset.sum_congr rfl fun k _ => ?_
  rw [zR_apply]
  exact congrArg (Read.val_main_v18 (F := Ideal) x0 x1 x2 x3 x8 x9)
    (funext fun a => by match a with | ⟨0, _⟩ => rfl | ⟨1, _⟩ => rfl)

/-- The batch mean: the column sum divided by the literal 1000000.0. -/
theorem mean_at (j : Fin 128) :
    Read.val_main_v21 (F := Ideal) x0 x1 x2 x3 x8 x9 (ix1 j) = Cert.Spec.mean (zR x0 x1 x2 x3 x8 x9) j := by
  rw [Read.val_main_v21_apply, Read.val_main_v20_apply, Read.val_main_cst_3_apply, colSum_at, Ideal.hostDivf_def,
    Ideal.ofBits_def]
  unfold Cert.Spec.mean Cert.Spec.nE
  rfl

/-- The mean spread over the edges, as the deviations read it. -/
theorem mean_rows_at (e : Fin 1000000) (j : Fin 128) :
    Read.val_main_v23 (F := Ideal) x0 x1 x2 x3 x8 x9 (ix2 e j) = Cert.Spec.mean (zR x0 x1 x2 x3 x8 x9) j := by
  rw [Read.val_main_v23_apply, Read.val_main_v22_apply]
  have hi : Read.idx_main_v22 (Read.idx_main_v23 (ix2 e j)) = ix1 j :=
    funext fun a => by match a with | ⟨0, _⟩ => rfl
  rw [hi, mean_at]

/-- The sum over all edges of the squared deviations from the mean. -/
theorem devSq_at (j : Fin 128) :
    Read.val_main_v26 (F := Ideal) x0 x1 x2 x3 x8 x9 (ix1 j)
      = ∑ e : Fin 1000000, (zR x0 x1 x2 x3 x8 x9 e j - Cert.Spec.mean (zR x0 x1 x2 x3 x8 x9) j)
          * (zR x0 x1 x2 x3 x8 x9 e j - Cert.Spec.mean (zR x0 x1 x2 x3 x8 x9) j) := by
  rw [Read.val_main_v26_apply, Read.val_main_cst_4_apply, Ideal.ofBits_def, Ideal.ofBits_zero_f32, zero_add]
  refine Finset.sum_congr rfl fun k _ => ?_
  have hi : Read.idx_main_v26 (ix1 j) k = ix2 k j :=
    funext fun a => by match a with | ⟨0, _⟩ => rfl | ⟨1, _⟩ => rfl
  rw [hi, Read.val_main_v25_apply, Read.val_main_v24_apply, mean_rows_at, Ideal.mulf_def, Ideal.subf_def, zR_apply]

/-- The biased variance in the form mean of squared deviations. -/
theorem varR_at (j : Fin 128) :
    Read.val_main_v28 (F := Ideal) x0 x1 x2 x3 x8 x9 (ix1 j) = Cert.Spec.varR (zR x0 x1 x2 x3 x8 x9) j := by
  rw [Read.val_main_v28_apply, Read.val_main_v27_apply, Read.val_main_cst_5_apply, devSq_at, Ideal.hostDivf_def,
    Ideal.ofBits_def]
  unfold Cert.Spec.varR Cert.Spec.nE
  rfl

/-- The inverse standard deviation: `rsqrt` of the variance plus the literal ε. -/
theorem istd_at (j : Fin 128) :
    Read.val_main_v34 (F := Ideal) x0 x1 x2 x3 x8 x9 (ix1 j)
      = Cert.Spec.istd (Cert.Spec.varR (zR x0 x1 x2 x3 x8 x9) j) := by
  rw [Read.val_main_v34_apply, Read.val_main_v33_apply, Read.val_main_v32_apply, Read.val_main_cst_6_apply, varR_at,
    Ideal.hostUnary_rsqrt_def, Ideal.addf_def, Ideal.ofBits_def]
  unfold Cert.Spec.istd Cert.Spec.eps
  rfl

/-! ## Normalise, rescale, rectify, contract -/

/-- The mean spread over the edges, as the normalisation reads it. -/
theorem mean_rows_at' (e : Fin 1000000) (j : Fin 128) :
    Read.val_main_v30 (F := Ideal) x0 x1 x2 x3 x8 x9 (ix2 e j) = Cert.Spec.mean (zR x0 x1 x2 x3 x8 x9) j := by
  rw [Read.val_main_v30_apply, Read.val_main_v29_apply]
  have hi : Read.idx_main_v29 (Read.idx_main_v30 (ix2 e j)) = ix1 j :=
    funext fun a => by match a with | ⟨0, _⟩ => rfl
  rw [hi, mean_at]

/-- The inverse standard deviation spread over the edges. -/
theorem istd_rows_at (e : Fin 1000000) (j : Fin 128) :
    Read.val_main_v36 (F := Ideal) x0 x1 x2 x3 x8 x9 (ix2 e j)
      = Cert.Spec.istd (Cert.Spec.varR (zR x0 x1 x2 x3 x8 x9) j) := by
  rw [Read.val_main_v36_apply, Read.val_main_v35_apply]
  have hi : Read.idx_main_v35 (Read.idx_main_v36 (ix2 e j)) = ix1 j :=
    funext fun a => by match a with | ⟨0, _⟩ => rfl
  rw [hi, istd_at]

/-- The scale vector spread over the edges. -/
theorem scale_rows_at (e : Fin 1000000) (j : Fin 128) :
    Read.val_main_v39 (F := Ideal) x4 (ix2 e j) = x4 (ix1 j) := by
  rw [Read.val_main_v39_apply, Read.val_main_v38_apply]
  exact congrArg x4 (funext fun a => by match a with | ⟨0, _⟩ => rfl)

/-- The shift vector spread over the edges. -/
theorem shift_rows_at (e : Fin 1000000) (j : Fin 128) :
    Read.val_main_v42 (F := Ideal) x5 (ix2 e j) = x5 (ix1 j) := by
  rw [Read.val_main_v42_apply, Read.val_main_v41_apply]
  exact congrArg x5 (funext fun a => by match a with | ⟨0, _⟩ => rfl)

/-- The rectified, rescaled, normalised first layer at edge `e`, column `j`. -/
theorem relu_at (e : Fin 1000000) (j : Fin 128) :
    Read.val_main_v44 (F := Ideal) x0 x1 x2 x3 x4 x5 x8 x9 (ix2 e j)
      = max ((zR x0 x1 x2 x3 x8 x9 e j - Cert.Spec.mean (zR x0 x1 x2 x3 x8 x9) j)
              * Cert.Spec.istd (Cert.Spec.varR (zR x0 x1 x2 x3 x8 x9) j) * x4 (ix1 j) + x5 (ix1 j)) Cert.Spec.zeroLit := by
  rw [Read.val_main_v44_apply, Read.val_main_call0_v0_apply, Read.val_main_call0_cst_apply, Read.val_main_v43_apply,
    Read.val_main_v40_apply, Read.val_main_v37_apply, Read.val_main_v31_apply, mean_rows_at', istd_rows_at,
    scale_rows_at, shift_rows_at, zR_apply]
  simp only [Ideal.maximumf_def, Ideal.addf_def, Ideal.mulf_def, Ideal.subf_def, Ideal.ofBits_def]
  unfold Cert.Spec.zeroLit
  rfl

/-- The score of edge `e`: the rectified row contracted with the second layer's column, plus its bias. -/
theorem score_at (e : Fin 1000000) :
    Read.val_main_v48 (F := Ideal) x0 x1 x2 x3 x4 x5 x6 x7 x8 x9 (ix2 e (0 : Fin 1))
      = Cert.Spec.score (zR x0 x1 x2 x3 x8 x9) (Cert.Spec.mean (zR x0 x1 x2 x3 x8 x9))
          (fun j => Cert.Spec.istd (Cert.Spec.varR (zR x0 x1 x2 x3 x8 x9) j))
          (fun j => x4 (ix1 j)) (fun j => x5 (ix1 j)) (fun j => x6 (ix2 j 0)) (x7 (ix1 0)) e := by
  rw [Read.val_main_v48_apply, Read.val_main_v45_apply, Read.val_main_v47_apply, Read.val_main_v46_apply, Ideal.addf_def]
  unfold Cert.Spec.score
  refine congrArg₂ (· + ·) (Finset.sum_congr rfl fun k _ => ?_) ?_
  · have hl : Read.lidx_main_v45 (ix2 e (0 : Fin 1)) k = ix2 e k :=
      funext fun a => by match a with | ⟨0, _⟩ => rfl | ⟨1, _⟩ => rfl
    have hr : Read.ridx_main_v45 (ix2 e (0 : Fin 1)) k = ix2 k (0 : Fin 1) :=
      funext fun a => by match a with | ⟨0, _⟩ => rfl | ⟨1, _⟩ => rfl
    rw [hl, hr, relu_at]
  · exact congrArg x7 (funext fun a => by match a with | ⟨0, _⟩ => rfl)

/-- The score as a vector over the edges (the column of scores read as a vector). -/
theorem score_vec_at (e : Fin 1000000) :
    Read.val_main_v49 (F := Ideal) x0 x1 x2 x3 x4 x5 x6 x7 x8 x9 (ix1 e)
      = Cert.Spec.score (zR x0 x1 x2 x3 x8 x9) (Cert.Spec.mean (zR x0 x1 x2 x3 x8 x9))
          (fun j => Cert.Spec.istd (Cert.Spec.varR (zR x0 x1 x2 x3 x8 x9) j))
          (fun j => x4 (ix1 j)) (fun j => x5 (ix1 j)) (fun j => x6 (ix2 j 0)) (x7 (ix1 0)) e := by
  rw [Read.val_main_v49_apply]
  have hi : Read.idx_main_v49 (ix1 e) = ix2 e (0 : Fin 1) :=
    funext fun a => by match a with | ⟨0, _⟩ => exact Fin.ext (Nat.div_one _) | ⟨1, _⟩ => rfl
  rw [hi, score_at]

/-! ## The result -/

/-- The result at edge `e`: `1 / (1 + exp (−score))` with the literal `1.0` the extended real `1`, the logistic
    function of the score. -/
theorem out_at (e : Fin 1000000) :
    Read.val_main_v55 (F := Ideal) x0 x1 x2 x3 x4 x5 x6 x7 x8 x9 (ix1 e)
      = Cert.Spec.outR (zR x0 x1 x2 x3 x8 x9) (fun j => x4 (ix1 j)) (fun j => x5 (ix1 j)) (fun j => x6 (ix2 j 0))
          (x7 (ix1 0)) e := by
  rw [Read.val_main_v55_apply, Read.val_main_v54_apply, Read.val_main_cst_8_apply, Read.val_main_v53_apply,
    Read.val_main_v52_apply, Read.val_main_cst_7_apply, Read.val_main_v51_apply, Read.val_main_v50_apply, score_vec_at]
  simp only [Ideal.hostDivf_def, Ideal.addf_def, Ideal.hostUnary_exp_def, Ideal.hostNegf_def, Ideal.negf_def,
    Ideal.ofBits_def, Cert.Spec.one_lit]
  unfold Cert.Spec.outR Ideal.logistic
  rfl

/-- The reference's result array is the specification's result, with the variance in the form mean of squared
    deviations, of the first layer of the gathered rows. -/
theorem out_eq :
    Read.val_main_v55 (F := Ideal) x0 x1 x2 x3 x4 x5 x6 x7 x8 x9
      = fun i : S1000000.Idx => Cert.Spec.outR
          (Cert.Spec.linCat (fun e k => Read.val_main_v6 (F := Ideal) x0 x8 (ix2 e k))
            (fun e k => Read.val_main_v13 (F := Ideal) x1 x9 (ix2 e k)) (fun k j => x2 (ix2 k j)) (fun j => x3 (ix1 j)))
          (fun j => x4 (ix1 j)) (fun j => x5 (ix1 j)) (fun j => x6 (ix2 j 0)) (x7 (ix1 0)) (i 0) := by
  funext i
  obtain ⟨e, rfl⟩ : ∃ e : Fin 1000000, i = ix1 e := ⟨i 0, eq_ix1 i⟩
  rw [out_at, zR_eq]

end Cert.ReferenceIdeal.RefValue

end
-- ==== Proof.Whole.lean ====
import proofs.«155015_j11098195493028_2_alg».proof.Proof.R0Final
import proofs.«155015_j11098195493028_2_alg».proof.Proof.Region1
import proofs.«155015_j11098195493028_2_alg».proof.Proof.KHost
import proofs.«155015_j11098195493028_2_alg».proof.Proof.KHost0
import proofs.«155015_j11098195493028_2_alg».proof.Proof.SpecLaws
import proofs.«155015_j11098195493028_2_alg».proof.Proof.RefValue

noncomputable section

open Idealize.ShloMosaic Idealize.ShloMosaic.TcCoe Idealize.SL.Sem Idealize.ShloMosaic.ValueIdx

namespace Cert.KernelIdeal.Whole

open Cert.KernelIdeal Cert.KernelIdeal.Gen

variable (m : (ℓ : Loc nD τ sig) → Buf (Elt Ideal) ℓ) (ρ : Dev nD → PrngReg) (c : Dev nD)

/-! The kernel program's result, end to end: the first region's three arrays feed the host's mean and inverse
    standard deviation, which feed the second region; its array, reshaped, is the result.  Read edge by edge it is
    the specification's result with the variance in the form mean of squares minus squared mean, of the linear
    layer of the rows gathered from the two tables. -/

/-- The linear layer of all edges as a function of the program's arguments: the rows gathered from the two tables,
    the two halves of the first weight matrix, the first bias. -/
def zArgs : Fin 1000000 → Fin 128 → EReal :=
  Cert.Spec.lin
    (fun e k => Cert.ReferenceIdeal.Read.val_main_v6 (F := Ideal) (m ((c.tc : Thread nD τ).loc main_arg0)) (m ((c.tc : Thread nD τ).loc main_arg8)) (ix2 e k))
    (fun e k => Cert.ReferenceIdeal.Read.val_main_v13 (F := Ideal) (m ((c.tc : Thread nD τ).loc main_arg1)) (m ((c.tc : Thread nD τ).loc main_arg9)) (ix2 e k))
    (fun k j => m ((c.tc : Thread nD τ).loc main_arg2) (ix2 (Fin.castAdd 128 k) j))
    (fun k j => m ((c.tc : Thread nD τ).loc main_arg2) (ix2 (Fin.natAdd 128 k) j))
    (fun j => m ((c.tc : Thread nD τ).loc main_arg3) (ix1 j))

/-- What the first region computes its linear layer from is what the host prepared from the arguments. -/
theorem Z_entry : Region0.Z (V1 m ρ) c = zArgs m c := by
  unfold Region0.Z zArgs
  have e1 : Region0.xu (V1 m ρ) c = fun e k => Cert.ReferenceIdeal.Read.val_main_v6 (F := Ideal) (m ((c.tc : Thread nD τ).loc main_arg0)) (m ((c.tc : Thread nD τ).loc main_arg8)) (ix2 e k) := by
    funext e k; unfold Region0.xu; rw [HostVal.V1_v8]
  have e2 : Region0.xf (V1 m ρ) c = fun e k => Cert.ReferenceIdeal.Read.val_main_v13 (F := Ideal) (m ((c.tc : Thread nD τ).loc main_arg1)) (m ((c.tc : Thread nD τ).loc main_arg9)) (ix2 e k) := by
    funext e k; unfold Region0.xf; rw [HostVal.V1_v15]
  have e3 : Region0.wa (V1 m ρ) c = fun k j => m ((c.tc : Thread nD τ).loc main_arg2) (ix2 (Fin.castAdd 128 k) j) := by
    funext k j; unfold Region0.wa; exact HostVal.V1_v17 m ρ c k j
  have e4 : Region0.wb (V1 m ρ) c = fun k j => m ((c.tc : Thread nD τ).loc main_arg2) (ix2 (Fin.natAdd 128 k) j) := by
    funext k j; unfold Region0.wb; exact HostVal.V1_v19 m ρ c k j
  have e5 : Region0.b1 (V1 m ρ) c = fun j => m ((c.tc : Thread nD τ).loc main_arg3) (ix1 j) := by
    funext j; unfold Region0.b1; rw [HostVal.V1_arg3]
  rw [e1, e2, e3, e4, e5]

/-- THE KERNEL PROGRAM'S RESULT at edge `e`. -/
theorem result_at (e : Fin 1000000) :
    W5 m ρ c (Proc.devRef .tc main_v33) (ix1 e)
      = Cert.Spec.outK (zArgs m c) (fun j => m ((c.tc : Thread nD τ).loc main_arg4) (ix1 j)) (fun j => m ((c.tc : Thread nD τ).loc main_arg5) (ix1 j))
          (fun j => m ((c.tc : Thread nD τ).loc main_arg6) (ix2 j 0)) (m ((c.tc : Thread nD τ).loc main_arg7) (ix1 0)) e := by
  rw [HostVal.W5_v33, Region1.final (V3 m ρ) c e]
  have hz : (fun (e : Fin 1000000) (j : Fin 128) => V3 m ρ c main_v20_0 (ix2 e j)) = zArgs m c := by
    funext e j
    rw [HostVal.V3_v20_0, Region0.z1_final, Z_entry]
  have hmu : (fun j : Fin 128 => V3 m ρ c main_v22 (ix1 j)) = Cert.Spec.mean (zArgs m c) := by
    funext j
    rw [HostVal.V3_v22, Region0.sum_final, Z_entry]
    rfl
  have hsd : (fun j : Fin 128 => V3 m ρ c main_v29 (ix1 j)) = fun j => Cert.Spec.istd (Cert.Spec.varK (zArgs m c) j) := by
    funext j
    rw [HostVal.V3_v29, Region0.sumsq_final, Region0.sum_final, Z_entry]
    rfl
  have hg : (fun j : Fin 128 => V3 m ρ c main_arg4 (ix1 j)) = fun j => m ((c.tc : Thread nD τ).loc main_arg4) (ix1 j) := by
    rw [HostVal.V3_arg4]
  have hb : (fun j : Fin 128 => V3 m ρ c main_arg5 (ix1 j)) = fun j => m ((c.tc : Thread nD τ).loc main_arg5) (ix1 j) := by
    rw [HostVal.V3_arg5]
  have hw : (fun j : Fin 128 => V3 m ρ c main_v30 (ix1 j)) = fun j => m ((c.tc : Thread nD τ).loc main_arg6) (ix2 j 0) := by
    funext j; exact HostVal.V3_v30 m ρ c j
  rw [hz, hmu, hsd, hg, hb, hw, HostVal.V3_v31]
  rfl

/-- Every entry of the linear layer is a real number when the tables, the weight matrix and the bias hold reals. -/
theorem zArgs_real
    (h0 : ∀ i, ∃ r : ℝ, m ((c.tc : Thread nD τ).loc main_arg0) i = (r : EReal))
    (h1 : ∀ i, ∃ r : ℝ, m ((c.tc : Thread nD τ).loc main_arg1) i = (r : EReal))
    (h2 : ∀ i, ∃ r : ℝ, m ((c.tc : Thread nD τ).loc main_arg2) i = (r : EReal))
    (h3 : ∀ i, ∃ r : ℝ, m ((c.tc : Thread nD τ).loc main_arg3) i = (r : EReal)) :
    ∀ e j, ∃ r : ℝ, zArgs m c e j = (r : EReal) :=
  Cert.Spec.lin_real _ _ _ _ _
    (fun e k => Cert.ReferenceIdeal.RefValue.v6_real _ _ h0 _)
    (fun e k => Cert.ReferenceIdeal.RefValue.v13_real _ _ h1 _)
    (fun k j => h2 _) (fun k j => h2 _) (fun j => h3 _)

end Cert.KernelIdeal.Whole

end
-- ==== Proof.KRun.lean ====
/-
  The kernel program's run with the result named.

  At the compiled mesh, from any memory with zero counters, every weakly fair execution of @main on the
  TensorCores terminates, nothing faulting; in every final state each core's result buffer holds the last
  boundary's contents `W5` of the fold of buffer contents through @main's five segments, and the ten argument
  arrays are as launched.
-/
import proofs.«155015_j11098195493028_2_alg».proof.Proof.Gen.KernelIdeal.Frame

set_option maxRecDepth 16384

noncomputable section

namespace Cert.KernelIdeal.HostVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: termination without fault, the result buffer at the last boundary's contents, the arguments as launched.
    The launch over @main's segments ends with every unscoped buffer at `W5`; the final state is read against it
    buffer by buffer: the result buffer as it stands, each argument walked back through the fold to the launch memory. -/
theorem run : θ_run defs (onTc (τ := τ) (main (F := F))) ⟨m, fun _ => 0, ρ⟩ (fun r => ∀ c : Dev nD,
      r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.HostVal

end
-- ==== Proof.Finite.lean ====
/-
  Finiteness of the float inputs the first layer reads.

  The precondition says that a printed predicate is all ones: the conjunction, over the float arguments, of
  "every entry's absolute value is below +∞" (an elementwise comparison against the pattern `0x7F800000`, reduced
  by `and` over all axes). Read back: the conjunction gives each argument's reduction, the reduction gives the
  comparison at every index, and an extended real `x` with `max x (−x) < ⊤` is neither `⊤` nor `⊥`, so it is a
  real number.
-/
import proofs.«155015_j11098195493028_2_alg».proof.Defs
import Idealize.ShloMosaic.Lib.ReduceAll
import Idealize.ShloMosaic.Lib.ValueIdx

noncomputable section

namespace Cert.Finite

open Idealize.ShloMosaic Idealize.ShloMosaic.TcCoe Idealize.SL.Sem

/-- The rank-0 shape has one index. -/
instance : Subsingleton (Cert.Pre_finite_inputs.S_).Idx := ⟨fun _ _ => funext fun d => d.elim0⟩

/-- The pattern `0x7F800000` (exponent field all ones, significand field zero, sign bit clear) denotes `+∞`. -/
theorem inf_lit : Ideal.ofBits .f32 0x7F800000#32 = (⊤ : EReal) := by
  simp [Ideal.ofBits, Ideal.ieee]

/-- An extended real whose absolute value `max x (−x)` compares below `+∞` is a real number. -/
theorem real_of_abs_lt (x : EReal)
    (h : Ideal.cmp .olt (max x (-x)) (Ideal.ofBits .f32 0x7F800000#32) = 1#1) : ∃ r : ℝ, x = (r : EReal) := by
  rw [inf_lit] at h
  induction x using EReal.rec with
  | bot => simp [Ideal.cmp] at h
  | coe r => exact ⟨r, rfl⟩
  | top => simp [Ideal.cmp] at h

/-- One argument: if the reduction by `and`, over all axes, of "`|x| < +∞`" is one, every entry of `x` is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i : s.Idx, ∃ r : ℝ, x i = (r : EReal) := by
  intro i
  have h1 := Host.reduce_andi_all _ _ hr hu ValueIdx.ix0 h i
  exact real_of_abs_lt (x i) h1

/-- The user table, the food table, the first layer's weight matrix and its bias hold real numbers. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread _ Cert.KernelIdeal.τ).loc Cert.KernelIdeal.main_arg1) i = (r : EReal))
    ∧ (∀ i, ∃ r : ℝ, m ((c.tc : Thread _ Cert.KernelIdeal.τ).loc Cert.KernelIdeal.main_arg2) i = (r : EReal))
    ∧ (∀ i, ∃ r : ℝ, m ((c.tc : Thread _ Cert.KernelIdeal.τ).loc Cert.KernelIdeal.main_arg3) i = (r : EReal)) := by
  have h0 := congrFun (h c) ValueIdx.ix0
  dsimp only [Cert.Pre_finite_inputs.fn, Cert.Pre_finite_inputs.fn_part1, Cert.Pre_finite_inputs.fn_part2] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨all_real _ _ _ _ h0, all_real _ _ _ _ h1, all_real _ _ _ _ h2, all_real _ _ _ _ h3⟩

/-- The same facts entry by entry, the indices built from literal coordinates. -/
theorem args_real_ix [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ (a : Fin 100000) (k : Fin 128), ∃ r : ℝ,
        m ((c.tc : Thread Cert.KernelIdeal.nD Cert.KernelIdeal.τ).loc Cert.KernelIdeal.main_arg0) (ValueIdx.ix2 a k) = (r : EReal))
    ∧ (∀ (a : Fin 50000) (k : Fin 128), ∃ r : ℝ,
        m ((c.tc : Thread _ Cert.KernelIdeal.τ).loc Cert.KernelIdeal.main_arg1) (ValueIdx.ix2 a k) = (r : EReal))
    ∧ (∀ (k : Fin 256) (j : Fin 128), ∃ r : ℝ,
        m ((c.tc : Thread _ Cert.KernelIdeal.τ).loc Cert.KernelIdeal.main_arg2) (ValueIdx.ix2 k j) = (r : EReal))
    ∧ (∀ (j : Fin 128), ∃ r : ℝ,
        m ((c.tc : Thread _ Cert.KernelIdeal.τ).loc Cert.KernelIdeal.main_arg3) (ValueIdx.ix1 j) = (r : EReal)) := by
  obtain ⟨h0, h1, h2, h3⟩ := args_real m h c
  exact ⟨fun a k => h0 _, fun a k => h1 _, fun k j => h2 _, fun j => h3 _⟩

end Cert.Finite

end
-- ==== Proof.Claims.lean ====
import proofs.«155015_j11098195493028_2_alg».proof.Defs
import proofs.«155015_j11098195493028_2_alg».proof.Proof.Gen.Kernel.Frame
import proofs.«155015_j11098195493028_2_alg».proof.Proof.Gen.KernelIdeal.Frame
import proofs.«155015_j11098195493028_2_alg».proof.Proof.Gen.ReferenceIdeal.Run
import proofs.«155015_j11098195493028_2_alg».proof.Proof.Gen.ReferenceIdeal.Read
import proofs.«155015_j11098195493028_2_alg».proof.Proof.Gen.Pre_finite_inputs
import proofs.«155015_j11098195493028_2_alg».proof.Proof.Whole
import proofs.«155015_j11098195493028_2_alg».proof.Proof.KRun
import proofs.«155015_j11098195493028_2_alg».proof.Proof.Finite
import proofs.«155015_j11098195493028_2_alg».proof.Proof.RefValue

noncomputable section

open Idealize.ShloMosaic Idealize.ShloMosaic.TcCoe Idealize.SL.Sem Idealize.ShloMosaic.ValueIdx

/-! The five claims.  The three programs run and leave their arguments alone; the idealization rewrote nothing;
    and at the extended reals both idealized programs end at the same array: at edge `e` the kernel program holds the
    result with the variance taken as mean of squares minus squared mean, the reference the result with the variance
    taken as mean of squared deviations, of one and the same linear layer (the reference's single contraction over
    the concatenated rows is the kernel's two contractions added) — and the two variances agree because every entry
    of that layer is a real number, the inputs being finite. -/

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W5 m ρ c (Proc.devRef .tc Cert.KernelIdeal.main_v33),
    Cert.KernelIdeal.HostVal.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  obtain ⟨r0, r1, r2, r3⟩ := Cert.Finite.args_real m hpre c
  rw [Cert.ReferenceIdeal.Read.val_main_v55_eq, a0, a1, a2, a3, a4, a5, a6, a7, a8, a9, Cert.ReferenceIdeal.RefValue.out_eq]
  funext i
  obtain ⟨e, rfl⟩ : ∃ e : Fin 1000000, i = ix1 e := ⟨i 0, eq_ix1 i⟩
  refine Eq.trans ?_ (Cert.KernelIdeal.Whole.result_at m ρ c e).symm
  have hlin : Cert.Spec.linCat
        (fun e k => Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg8)) (ix2 e k))
        (fun e k => Cert.ReferenceIdeal.Read.val_main_v13 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg9)) (ix2 e k))
        (fun k j => m ((c.tc : Thread Cert.KernelIdeal.nD Cert.KernelIdeal.τ).loc Cert.KernelIdeal.main_arg2) (ix2 k j))
        (fun j => m ((c.tc : Thread Cert.KernelIdeal.nD Cert.KernelIdeal.τ).loc Cert.KernelIdeal.main_arg3) (ix1 j))
      = Cert.KernelIdeal.Whole.zArgs m c := by
    funext e j
    exact Cert.Spec.linCat_eq_lin _ _ _ _ e j
  show Cert.Spec.outR _ _ _ _ _ _ = _
  rw [hlin]
  exact (Cert.Spec.outK_eq_outR _ (Cert.KernelIdeal.Whole.zArgs_real m c r0 r1 r2 r3) _ _ _ _ e).symm

end Cert.Proof.Claims

end
-- ==== Proof.lean ====
/-
  The certificate of a two-layer edge model with batch normalisation, computed by two pipelined kernels, against
  its plain reference.  For each of 1000000 edges a user row and a food row (128 entries each) are gathered; the
  first layer is `z = xu·Wa + xf·Wb + b1` (the reference contracts the concatenated row with the whole matrix); the
  column means and variances of `z` over all edges normalise it; then scale, shift, rectifier, the second layer's
  column, its bias and the logistic function.

  The first kernel walks the edges in 50 blocks of 20000 rows, stores each block of `z` and accumulates the column
  sums of `z` and of `z²` across the grid (R0Pieces, R0Point, R0Acc, R0Final); the host turns the sums into the mean
  and the inverse standard deviation `rsqrt (Σz²/n − mean² + ε)` (KHost0, KHost); the second kernel normalises and
  finishes each block of rows (Region1); KRun names the program's result in its run.  The reference's 69 host
  operations are read stage by stage (RefValue) as the same result with the variance `Σ(z − mean)²/n`.  Spec states
  the shared formulas, SpecLaws proves that the two variances agree on real numbers and that the two spellings of
  the first layer agree always, Finite reads the finiteness of the inputs off the precondition, Whole and Claims
  put the pieces together.
-/
import proofs.«155015_j11098195493028_2_alg».proof.Defs
import proofs.«155015_j11098195493028_2_alg».proof.Proof.Gen.Kernel
import proofs.«155015_j11098195493028_2_alg».proof.Proof.Gen.Kernel.Skeleton
import proofs.«155015_j11098195493028_2_alg».proof.Proof.Gen.Kernel.Launch
import proofs.«155015_j11098195493028_2_alg».proof.Proof.Gen.Kernel.Points
import proofs.«155015_j11098195493028_2_alg».proof.Proof.Gen.Kernel.Frame
import proofs.«155015_j11098195493028_2_alg».proof.Proof.Gen.KernelIdeal
import proofs.«155015_j11098195493028_2_alg».proof.Proof.Gen.KernelIdeal.Skeleton
import proofs.«155015_j11098195493028_2_alg».proof.Proof.Gen.KernelIdeal.Launch
import proofs.«155015_j11098195493028_2_alg».proof.Proof.Gen.KernelIdeal.Points
import proofs.«155015_j11098195493028_2_alg».proof.Proof.Gen.KernelIdeal.Frame
import proofs.«155015_j11098195493028_2_alg».proof.Proof.Gen.ReferenceIdeal
import proofs.«155015_j11098195493028_2_alg».proof.Proof.Gen.Pre_finite_inputs
import proofs.«155015_j11098195493028_2_alg».proof.Proof.Gen.ReferenceIdeal.Run
import proofs.«155015_j11098195493028_2_alg».proof.Proof.Gen.ReferenceIdeal.Read
import proofs.«155015_j11098195493028_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
